-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v79)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v79) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v84) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_arg6 : FVec F S64x64 .f32) (main_arg7 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x64 .f32 := Host.absf main_arg6
  let main_cst_8 : FVec F S_ .f32 := constant S_ .f32 0x7F800000#32
  let main_v25 : FVec F S64x64 .f32 := broadcastInDim S64x64 ![] bcast_S_S64x64 main_cst_8
  let main_v26 : IVec S64x64 1 := cmpf .olt main_v24 main_v25
  let main_c_9 : IVec S_ 1 := constantI S_ 1 1#1
  let main_v27 : IVec S_ 1 := (fun x v => Host.reduce IntOp.andi x v reducesTo_S64x64_S_d0_1 h_S_) main_v26 main_c_9
  let main_v28 : IVec S_ 1 := andi main_v23 main_v27
  let main_v29 : FVec F S64 .f32 := Host.absf main_arg7
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  main_v33

def fn {F : FTy → Type} [FloatOps F] (main_arg0 : FVec F S100000x64 .f32) (main_arg1 : IVec S2x1600000 32) (main_arg2 : FVec F S64x64 .f32) (main_arg3 : FVec F S64 .f32) (main_arg4 : FVec F S64x64 .f32) (main_arg5 : FVec F S64 .f32) (main_arg6 : FVec F S64x64 .f32) (main_arg7 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_arg6 main_arg7 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S10000x64 : Shape := ⟨2, ![10000, 64]⟩
abbrev S1700000x64 : Shape := ⟨2, ![1700000, 64]⟩
abbrev S1x64 : Shape := ⟨2, ![1, 64]⟩

abbrev nBuf : Space → Nat
  | .hbm => 108
  | .vmem => 30
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S1700000x1, .f32⟩
  | .hbm, ⟨72, _⟩ => ⟨S_, .i32⟩
  | .hbm, ⟨73, _⟩ => ⟨S1700000, .i32⟩
  | .hbm, ⟨74, _⟩ => ⟨S1700000, .i1⟩
  | .hbm, ⟨75, _⟩ => ⟨S_, .i32⟩
  | .hbm, ⟨76, _⟩ => ⟨S1700000, .i32⟩
  | .hbm, ⟨77, _⟩ => ⟨S1700000, .i32⟩
  | .hbm, ⟨78, _⟩ => ⟨S1700000, .i32⟩
  | .hbm, ⟨79, _⟩ => ⟨S1700000x1, .i32⟩
  | .hbm, ⟨80, _⟩ => ⟨S1700000x64, .f32⟩
  | .hbm, ⟨81, _⟩ => ⟨S1700000x64, .f32⟩
  | .hbm, ⟨82, _⟩ => ⟨S1700000x64, .f32⟩
  | .hbm, ⟨83, _⟩ => ⟨S_, .f32⟩
  | .hbm, ⟨84, _⟩ => ⟨S100000x64, .f32⟩
  | .hbm, ⟨85, _⟩ => ⟨S1700000x1, .i32⟩
  | .hbm, ⟨86, _⟩ => ⟨S100000x64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1700000x1, .f32⟩
  | .hbm, ⟨91, _⟩ => ⟨S_, .i32⟩
  | .hbm, ⟨92, _⟩ => ⟨S1700000, .i32⟩
  | .hbm, ⟨93, _⟩ => ⟨S1700000, .i1⟩
  | .hbm, ⟨94, _⟩ => ⟨S_, .i32⟩
  | .hbm, ⟨95, _⟩ => ⟨S1700000, .i32⟩
  | .hbm, ⟨96, _⟩ => ⟨S1700000, .i32⟩
  | .hbm, ⟨97, _⟩ => ⟨S1700000, .i32⟩
  | .hbm, ⟨98, _⟩ => ⟨S1700000x1, .i32⟩
  | .hbm, ⟨99, _⟩ => ⟨S1700000x64, .f32⟩
  | .hbm, ⟨100, _⟩ => ⟨S1700000x64, .f32⟩
  | .hbm, ⟨101, _⟩ => ⟨S1700000x64, .f32⟩
  | .hbm, ⟨102, _⟩ => ⟨S_, .f32⟩
  | .hbm, ⟨103, _⟩ => ⟨S100000x64, .f32⟩
  | .hbm, ⟨104, _⟩ => ⟨S1700000x1, .i32⟩
  | .hbm, ⟨105, _⟩ => ⟨S100000x64, .f32⟩
  | .hbm, ⟨106, _⟩ => ⟨S1x64, .f32⟩
  | .hbm, ⟨107, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S64x64, .f32⟩
  | .local _ .vmem, ⟨3, _⟩ => ⟨S10000x64, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S1x64, .f32⟩
  | .local _ .vmem, ⟨8, _⟩ => ⟨S10000x64, .f32⟩
  | .local _ .vmem, ⟨9, _⟩ => ⟨S10000x64, .f32⟩
  | .local _ .vmem, ⟨10, _⟩ => ⟨S10000x64, .f32⟩
  | .local _ .vmem, ⟨11, _⟩ => ⟨S10000x64, .f32⟩
  | .local _ .vmem, ⟨12, _⟩ => ⟨S64x64, .f32⟩
  | .local _ .vmem, ⟨13, _⟩ => ⟨S10000x64, .f32⟩
  | .local _ .vmem, ⟨14, _⟩ => ⟨S10000x64, .f32⟩
  | .local _ .vmem, ⟨15, _⟩ => ⟨S10000x64, .f32⟩
  | .local _ .vmem, ⟨16, _⟩ => ⟨S10000x64, .f32⟩
  | .local _ .vmem, ⟨17, _⟩ => ⟨S1x64, .f32⟩
  | .local _ .vmem, ⟨18, _⟩ => ⟨S10000x64, .f32⟩
  | .local _ .vmem, ⟨19, _⟩ => ⟨S10000x64, .f32⟩
  | .local _ .vmem, ⟨20, _⟩ => ⟨S10000x64, .f32⟩
  | .local _ .vmem, ⟨21, _⟩ => ⟨S10000x64, .f32⟩
  | .local _ .vmem, ⟨22, _⟩ => ⟨S64x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S1x64, .f32⟩
  | .local _ .vmem, ⟨28, _⟩ => ⟨S10000x64, .f32⟩
  | .local _ .vmem, ⟨29, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 30 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | _ => false

abbrev sig : RefSig :=
  ofTc nBuf bufTy 0 30 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_c_10 : Ref sig .tc := ⟨.hbm, 72, rfl⟩
abbrev main_v50 : Ref sig .tc := ⟨.hbm, 73, rfl⟩
abbrev main_v51 : Ref sig .tc := ⟨.hbm, 74, rfl⟩
abbrev main_c_11 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_12 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_13 : Ref sig .tc := ⟨.hbm, 91, rfl⟩
abbrev main_v66 : Ref sig .tc := ⟨.hbm, 92, rfl⟩
abbrev main_v67 : Ref sig .tc := ⟨.hbm, 93, rfl⟩
abbrev main_c_14 : Ref sig .tc := ⟨.hbm, 94, rfl⟩
abbrev main_v68 : Ref sig .tc := ⟨.hbm, 95, rfl⟩
abbrev main_v69 : Ref sig .tc := ⟨.hbm, 96, rfl⟩
abbrev main_v70 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_cst_15 : Ref sig .tc := ⟨.hbm, 102, rfl⟩
abbrev main_v75 : Ref sig .tc := ⟨.hbm, 103, rfl⟩
abbrev main_v76 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  inb_S10000x64_S10000x64_0_0 : ∀ a, (![0, 0] : Fin 2 → Nat) a + S10000x64.size a ≤ S10000x64.size a
  h_S10000x64 : 0 < S10000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  shapeCasts_S64_S1x64 : S64.ShapeCasts S1x64
  shapeCasts_S10000x64_S10000x64 : S10000x64.ShapeCasts S10000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S10000x64_S64x64_S10000x64_1_0_0_1_n_n_wf : DotDims.WF S10000x64 S64x64 S10000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S100000x64.size a
  hwx2_2 : ∀ i : grid2.Coords, EltTy.bits .f32 = 32 ∨ (Rect.block (s := S100000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x64.size a ≤ S100000x64.size a
  hwx3_0 : ∀ i : grid3.Coords, EltTy.bits .f32 = 32 ∨ (Rect.block (s := S100000x64) S10000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x64.size a ≤ S100000x64.size a
  hwx3_2 : ∀ i : grid3.Coords, EltTy.bits .f32 = 32 ∨ (Rect.block (s := S100000x64) S10000x64.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S100000x64.size a
  hwx4_0 : ∀ i : grid4.Coords, EltTy.bits .f32 = 32 ∨ (Rect.block (s := S100000x64) S10000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x64.size a ≤ S64x64.size a
  hwx4_1 : ∀ i : grid4.Coords, EltTy.bits .f32 = 32 ∨ (Rect.block (s := S64x64) S64x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x64.size a ≤ S1x64.size a
  hwx5_1 : ∀ i : grid5.Coords, EltTy.bits .f32 = 32 ∨ (Rect.block (s := S1x64) S1x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S10000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S10000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v63) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg6) S64x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v64) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v77) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v78) S1x64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v79) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 117
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S64x64, .f32⟩
  | .hbm, ⟨7, _⟩ => ⟨S64, .f32⟩
  | .hbm, ⟨8, _⟩ => ⟨S100000, .i32⟩
  | .hbm, ⟨9, _⟩ => ⟨S1x1600000, .i32⟩
  | .hbm, ⟨10, _⟩ => ⟨S1600000, .i32⟩
  | .hbm, ⟨11, _⟩ => ⟨S1700000, .i32⟩
  | .hbm, ⟨12, _⟩ => ⟨S1x1600000, .i32⟩
  | .hbm, ⟨13, _⟩ => ⟨S1600000, .i32⟩
  | .hbm, ⟨14, _⟩ => ⟨S1700000, .i32⟩
  | .hbm, ⟨15, _⟩ => ⟨S_, .f32⟩
  | .hbm, ⟨16, _⟩ => ⟨S1700000, .f32⟩
  | .hbm, ⟨17, _⟩ => ⟨S_, .f32⟩
  | .hbm, ⟨18, _⟩ => ⟨S100000, .f32⟩
  | .hbm, ⟨19, _⟩ => ⟨S1700000x1, .i32⟩
  | .hbm, ⟨20, _⟩ => ⟨S100000, .f32⟩
  | .hbm, ⟨21, _⟩ => ⟨S_, .f32⟩
  | .hbm, ⟨22, _⟩ => ⟨S100000, .f32⟩
  | .hbm, ⟨23, _⟩ => ⟨S100000, .i1⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S100000, .f32⟩
  | .hbm, ⟨28, _⟩ => ⟨S_, .f32⟩
  | .hbm, ⟨29, _⟩ => ⟨S_, .f32⟩
  | .hbm, ⟨30, _⟩ => ⟨S100000, .f32⟩
  | .hbm, ⟨31, _⟩ => ⟨S100000, .f32⟩
  | .hbm, ⟨32, _⟩ => ⟨S_, .i32⟩
  | .hbm, ⟨33, _⟩ => ⟨S1700000, .i32⟩
  | .hbm, ⟨34, _⟩ => ⟨S1700000, .i1⟩
  | .hbm, ⟨35, _⟩ => ⟨S_, .i32⟩
  | .hbm, ⟨36, _⟩ => ⟨S1700000, .i32⟩
  | .hbm, ⟨37, _⟩ => ⟨S1700000, .i32⟩
  | .hbm, ⟨38, _⟩ => ⟨S1700000, .i32⟩
  | .hbm, ⟨39, _⟩ => ⟨S1700000x1, .i32⟩
  | .hbm, ⟨40, _⟩ => ⟨S1700000, .f32⟩
  | .hbm, ⟨41, _⟩ => ⟨S_, .i32⟩
  | .hbm, ⟨42, _⟩ => ⟨S1700000, .i32⟩
  | .hbm, ⟨43, _⟩ => ⟨S1700000, .i1⟩
  | .hbm, ⟨44, _⟩ => ⟨S_, .i32⟩
  | .hbm, ⟨45, _⟩ => ⟨S1700000, .i32⟩
  | .hbm, ⟨46, _⟩ => ⟨S1700000, .i32⟩
  | .hbm, ⟨47, _⟩ => ⟨S1700000, .i32⟩
  | .hbm, ⟨48, _⟩ => ⟨S1700000x1, .i32⟩
  | .hbm, ⟨49, _⟩ => ⟨S1700000, .f32⟩
  | .hbm, ⟨50, _⟩ => ⟨S1700000, .f32⟩
  | .hbm, ⟨51, _⟩ => ⟨S100000x64, .f32⟩
  | .hbm, ⟨52, _⟩ => ⟨S1700000x1, .f32⟩
  | .hbm, ⟨53, _⟩ => ⟨S_, .i32⟩
  | .hbm, ⟨54, _⟩ => ⟨S1700000, .i32⟩
  | .hbm, ⟨55, _⟩ => ⟨S1700000, .i1⟩
  | .hbm, ⟨56, _⟩ => ⟨S_, .i32⟩
  | .hbm, ⟨57, _⟩ => ⟨S1700000, .i32⟩
  | .hbm, ⟨58, _⟩ => ⟨S1700000, .i32⟩
  | .hbm, ⟨59, _⟩ => ⟨S1700000, .i32⟩
  | .hbm, ⟨60, _⟩ => ⟨S1700000x1, .i32⟩
  | .hbm, ⟨61, _⟩ => ⟨S1700000x64, .f32⟩
  | .hbm, ⟨62, _⟩ => ⟨S1700000x64, .f32⟩
  | .hbm, ⟨63, _⟩ => ⟨S1700000x64, .f32⟩
  | .hbm, ⟨64, _⟩ => ⟨S_, .f32⟩
  | .hbm, ⟨65, _⟩ => ⟨S100000x64, .f32⟩
  | .hbm, ⟨66, _⟩ => ⟨S1700000x1, .i32⟩
  | .hbm, ⟨67, _⟩ => ⟨S100000x64, .f32⟩
  | .hbm, ⟨68, _⟩ => ⟨S1x64, .f32⟩
  | .hbm, ⟨69, _⟩ => ⟨S100000x64, .f32⟩
  | .hbm, ⟨70, _⟩ => ⟨S100000x64, .f32⟩
  | .hbm, ⟨71, _⟩ => ⟨S_, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S1700000x1, .f32⟩
  | .hbm, ⟨76, _⟩ => ⟨S_, .i32⟩
  | .hbm, ⟨77, _⟩ => ⟨S1700000, .i32⟩
  | .hbm, ⟨78, _⟩ => ⟨S1700000, .i1⟩
  | .hbm, ⟨79, _⟩ => ⟨S_, .i32⟩
  | .hbm, ⟨80, _⟩ => ⟨S1700000, .i32⟩
  | .hbm, ⟨81, _⟩ => ⟨S1700000, .i32⟩
  | .hbm, ⟨82, _⟩ => ⟨S1700000, .i32⟩
  | .hbm, ⟨83, _⟩ => ⟨S1700000x1, .i32⟩
  | .hbm, ⟨84, _⟩ => ⟨S1700000x64, .f32⟩
  | .hbm, ⟨85, _⟩ => ⟨S1700000x64, .f32⟩
  | .hbm, ⟨86, _⟩ => ⟨S1700000x64, .f32⟩
  | .hbm, ⟨87, _⟩ => ⟨S_, .f32⟩
  | .hbm, ⟨88, _⟩ => ⟨S100000x64, .f32⟩
  | .hbm, ⟨89, _⟩ => ⟨S1700000x1, .i32⟩
  | .hbm, ⟨90, _⟩ => ⟨S100000x64, .f32⟩
  | .hbm, ⟨91, _⟩ => ⟨S1x64, .f32⟩
  | .hbm, ⟨92, _⟩ => ⟨S100000x64, .f32⟩
  | .hbm, ⟨93, _⟩ => ⟨S100000x64, .f32⟩
  | .hbm, ⟨94, _⟩ => ⟨S_, .f32⟩
  | .hbm, ⟨95, _⟩ => ⟨S100000x64, .f32⟩
  | .hbm, ⟨96, _⟩ => ⟨S100000x64, .f32⟩
  | .hbm, ⟨97, _⟩ => ⟨S100000x64, .f32⟩
  | .hbm, ⟨98, _⟩ => ⟨S1700000x1, .f32⟩
  | .hbm, ⟨99, _⟩ => ⟨S_, .i32⟩
  | .hbm, ⟨100, _⟩ => ⟨S1700000, .i32⟩
  | .hbm, ⟨101, _⟩ => ⟨S1700000, .i1⟩
  | .hbm, ⟨102, _⟩ => ⟨S_, .i32⟩
  | .hbm, ⟨103, _⟩ => ⟨S1700000, .i32⟩
  | .hbm, ⟨104, _⟩ => ⟨S1700000, .i32⟩
  | .hbm, ⟨105, _⟩ => ⟨S1700000, .i32⟩
  | .hbm, ⟨106, _⟩ => ⟨S1700000x1, .i32⟩
  | .hbm, ⟨107, _⟩ => ⟨S1700000x64, .f32⟩
  | .hbm, ⟨108, _⟩ => ⟨S1700000x64, .f32⟩
  | .hbm, ⟨109, _⟩ => ⟨S1700000x64, .f32⟩
  | .hbm, ⟨110, _⟩ => ⟨S_, .f32⟩
  | .hbm, ⟨111, _⟩ => ⟨S100000x64, .f32⟩
  | .hbm, ⟨112, _⟩ => ⟨S1700000x1, .i32⟩
  | .hbm, ⟨113, _⟩ => ⟨S100000x64, .f32⟩
  | .hbm, ⟨114, _⟩ => ⟨S1x64, .f32⟩
  | .hbm, ⟨115, _⟩ => ⟨S100000x64, .f32⟩
  | .hbm, ⟨116, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_cst_1 : Ref sig .tc := ⟨.hbm, 21, rfl⟩
abbrev main_v11 : Ref sig .tc := ⟨.hbm, 22, rfl⟩
abbrev main_v12 : Ref sig .tc := ⟨.hbm, 23, rfl⟩
abbrev main_cst_2 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_cst_3 : Ref sig .tc := ⟨.hbm, 28, rfl⟩
abbrev main_call0_v0 : Ref sig .tc := ⟨.hbm, 29, rfl⟩
abbrev main_call0_v1 : Ref sig .tc := ⟨.hbm, 30, rfl⟩
abbrev main_v16 : Ref sig .tc := ⟨.hbm, 31, rfl⟩
abbrev main_c : Ref sig .tc := ⟨.hbm, 32, rfl⟩
abbrev main_v17 : Ref sig .tc := ⟨.hbm, 33, rfl⟩
abbrev main_v18 : Ref sig .tc := ⟨.hbm, 34, rfl⟩
abbrev main_c_4 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c_5 : Ref sig .tc := ⟨.hbm, 41, rfl⟩
abbrev main_v24 : Ref sig .tc := ⟨.hbm, 42, rfl⟩
abbrev main_v25 : Ref sig .tc := ⟨.hbm, 43, rfl⟩
abbrev main_c_6 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_c_7 : Ref sig .tc := ⟨.hbm, 53, rfl⟩
abbrev main_v34 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_cst_9 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_call1_cst : Ref sig .tc := ⟨.hbm, 71, rfl⟩
abbrev main_call1_v0 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_c_10 : Ref sig .tc := ⟨.hbm, 76, rfl⟩
abbrev main_v52 : Ref sig .tc := ⟨.hbm, 77, rfl⟩
abbrev main_v53 : Ref sig .tc := ⟨.hbm, 78, rfl⟩
abbrev main_c_11 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_cst_12 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_call2_cst : Ref sig .tc := ⟨.hbm, 94, rfl⟩
abbrev main_call2_v0 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_c_13 : Ref sig .tc := ⟨.hbm, 99, rfl⟩
abbrev main_v70 : Ref sig .tc := ⟨.hbm, 100, rfl⟩
abbrev main_v71 : Ref sig .tc := ⟨.hbm, 101, rfl⟩
abbrev main_c_14 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_cst_15 : Ref sig .tc := ⟨.hbm, 110, rfl⟩
abbrev main_v79 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_v83 : Ref sig .tc := ⟨.hbm, 115, rfl⟩
abbrev main_v84 : Ref sig .tc := ⟨.hbm, 116, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.LibAfterSplit.lean ====
/- Running a list of host operations in two stretches: the contents after the whole list are the contents after its
   last operations run from the contents after its first `n`. A general fact about `StableHlo.after`, for any signature. -/
import Idealize.ShloMosaic.Lib.StableHlo.Run
import Idealize.ShloMosaic.Lib.Pipeline.Frame

namespace Cert.Lib.AfterSplit

open Idealize.ShloMosaic Idealize.ShloMosaic.StableHlo

variable {τ : Topo} {sig : RefSig} {Val : EltTy → Type}

/-- A list cut after its first `n` operations: first those, then the rest from what they left. -/
theorem after_take_drop (n : Nat) (l : List (HloOp τ sig Val)) (V : Valuation τ sig Val) :
    after l V = after (l.drop n) (after (l.take n) V) := by
  rw [← StableHlo.after_append, List.take_append_drop]

end Cert.Lib.AfterSplit

namespace Idealize.ShloMosaic.StableHlo

/-- Continues the evaluation of operation results where a one-pass simplification stopped (under the dependent pairs of a
    concatenation's operand list, which only rewriting reaches): each operation's result at its own buffer is its
    function's value, at any other buffer what was there. -/
macro "results_under_pairs" : tactic =>
  `(tactic| (repeat (first
               | rw [nullary_result] | rw [unary_result] | rw [binary_result] | rw [ternary_result] | rw [quaternary_result]
               | rw [reshape_result] | rw [nary4_result] | rw [nary_result]
               | (rw [nullary_result_ne]; rotate_left; decide)
               | (rw [unary_result_ne]; rotate_left; decide)
               | (rw [binary_result_ne]; rotate_left; decide)
               | (rw [ternary_result_ne]; rotate_left; decide)
               | (rw [quaternary_result_ne]; rotate_left; decide)
               | (rw [reshape_result_ne]; rotate_left; decide)
               | (rw [nary_result_ne]; rotate_left; decide))))

end Idealize.ShloMosaic.StableHlo
-- ==== Proof.KRun.lean ====
/-
  The idealized kernel's run with its result array named.

  The program's @main is twelve segments: stretches of host operations and six pipelined regions. The buffer contents at
  each segment boundary form a chain from the launch memory: after a host stretch, the stretch's operations applied to the
  contents before it; after a region, the region's arrays at what its grid's write-backs leave and every other buffer as it
  was. Every weakly fair execution from any memory with zero counters terminates, without a fault, and in the final
  state every unscoped buffer holds the last boundary's contents. Stated here for the result array (the last region's
  output) beside the eight argument arrays, which end as launched.
-/
import proofs.«176149_j30477087933020_1_alg».proof.Proof.Gen.KernelIdeal.Frame

set_option maxRecDepth 16384

noncomputable section

namespace Cert.KernelIdeal.KRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding plain
-- definitions in a metavariable's type
set_option backward.isDefEq.respectTransparency.types false in
/-- Every weakly fair execution of @main from `m` with zero counters terminates, nothing faulting; in every final state
    the result array holds the last boundary's contents at its buffer and the argument arrays are as launched. -/
theorem run_result : θ_run defs (onTc (τ := τ) (main (F := F))) ⟨m, fun _ => 0, ρ⟩ (fun r => ∀ c : Dev nD,
      r.2.mem ((c.tc : Thread nD τ).loc main_v79) = W12 m ρ c (Proc.devRef .tc main_v79)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W12 m ρ c b)
    (hfin := fun c s' => by
      iintro ⟨⟨Hh, -⟩, HSI⟩
      unfold StableHlo.held
      imodintro
      iapply (pointsTo_read_all (Pipeline.ucRefs τ sig) (fun b => (((c : Thread nD τ)).1, b)) (W12 m ρ c) s')
      isplitl [Hh] <;> iassumption)
    (hQ := fun s h c =>
      ⟨h c _ (mem_uc main_v79 (by decide)),
       (h c _ (mem_uc main_arg0 (by decide))).trans (W12_main_arg0 m ρ c),
       (h c _ (mem_uc main_arg1 (by decide))).trans (W12_main_arg1 m ρ c),
       (h c _ (mem_uc main_arg2 (by decide))).trans (W12_main_arg2 m ρ c),
       (h c _ (mem_uc main_arg3 (by decide))).trans (W12_main_arg3 m ρ c),
       (h c _ (mem_uc main_arg4 (by decide))).trans (W12_main_arg4 m ρ c),
       (h c _ (mem_uc main_arg5 (by decide))).trans (W12_main_arg5 m ρ c),
       (h c _ (mem_uc main_arg6 (by decide))).trans (W12_main_arg6 m ρ c),
       (h c _ (mem_uc main_arg7 (by decide))).trans (W12_main_arg7 m ρ c)⟩)

end Cert.KernelIdeal.KRun

end
-- ==== Proof.LibMlpAt.lean ====
/-
  The two-layer perceptron with rectifiers, read at one entry.

  For matrices x : [N, K], wa : [K, D], wb : [D, D] and one-row biases ba, bb : [1, D] the value at (r, q) is
      max (∑ j, max (∑ i, x[r,i] · wa[i,j] + ba[0,j]) 0 · wb[j,q] + bb[0,q]) 0
  on the extended reals. Two spellings of that function occur: the host's (two `dot_general`s, the biases broadcast
  along the rows, the rectifier a maximum with a broadcast zero) and a tile's (two matrix products into a zero
  accumulator with the operands narrowed to bf16 first, the biases broadcast as vectors). At the ideal values a change of
  format is the identity and both products are plain sums over the contracted coordinate, so each spelling reads the
  formula above at every entry; nothing here needs the entries to be finite.
-/
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.Mlp

open Idealize.ShloMosaic Idealize.ShloMosaic.ValueIdx

/-! ## A plain matrix product's dimension numbers, and its sum -/

/-- The dimension numbers of a plain product [m, k] × [k, n] → [m, n]: contract the left operand's axis 1 with the
    right operand's axis 0. -/
abbrev D2 {m k n : Nat} (w : DotDims.WF ⟨2, ![m, k]⟩ ⟨2, ![k, n]⟩ ⟨2, ![m, n]⟩ [1] [0] [0] [1] [] []) :
    DotDims ⟨2, ![m, k]⟩ ⟨2, ![k, n]⟩ ⟨2, ![m, n]⟩ := ⟨[1], [0], [0], [1], [], [], w⟩

variable {m k n : Nat}

/-- The left operand's index at output (a, b) and contracted coordinate c is (a, c). -/
theorem lhsIdx_D2 (w : DotDims.WF ⟨2, ![m, k]⟩ ⟨2, ![k, n]⟩ ⟨2, ![m, n]⟩ [1] [0] [0] [1] [] []) (a : Fin m) (b : Fin n) (c : Fin k) :
    (D2 w).lhsIdx (ix2 a b) ((contrEquiv1 (D2 w) k rfl rfl).symm c) = ix2 a c := by
  have c2 := contrEquiv1_symm_val (D2 w) k rfl rfl c
  funext ax; apply Fin.ext
  match ax with
  | ⟨0, _⟩ => simp [DotDims.lhsIdx]; rfl
  | ⟨1, _⟩ => simp [DotDims.lhsIdx]; exact c2

/-- The right operand's index at output (a, b) and contracted coordinate c is (c, b). -/
theorem rhsIdx_D2 (w : DotDims.WF ⟨2, ![m, k]⟩ ⟨2, ![k, n]⟩ ⟨2, ![m, n]⟩ [1] [0] [0] [1] [] []) (a : Fin m) (b : Fin n) (c : Fin k) :
    (D2 w).rhsIdx (ix2 a b) ((contrEquiv1 (D2 w) k rfl rfl).symm c) = ix2 c b := by
  have c2 := contrEquiv1_symm_val (D2 w) k rfl rfl c
  funext ax; apply Fin.ext
  match ax with
  | ⟨0, _⟩ => simp [DotDims.rhsIdx]; exact c2
  | ⟨1, _⟩ => simp [DotDims.rhsIdx]; rfl

/-- The host's product at (a, b): the sum over the contracted coordinate of the entries' products. -/
theorem dotGeneral_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    Host.dotGeneral (D2 w) prec A B (ix2 a b) = ∑ c : Fin k, A (ix2 a c) * B (ix2 c b) := by
  show FloatOps.dotGeneral _ prec _ A B (ix2 a b) = _
  rw [Ideal.dotGeneral_apply, ← Equiv.sum_comp (contrEquiv1 (D2 w) k rfl rfl).symm]
  refine Finset.sum_congr rfl fun c _ => ?_
  rw [lhsIdx_D2, rhsIdx_D2]

/-- A tile's product into a zero accumulator at (a, b): the same sum. -/
theorem matmul_zero_at {φ₁ φ₂ : FTy} (w : DotDims.WF ⟨2, ![m, k]⟩ ⟨2, ![k, n]⟩ ⟨2, ![m, n]⟩ [1] [0] [0] [1] [] [])
    (prec : Option ContractPrecision) (A : FVec Ideal ⟨2, ![m, k]⟩ φ₁) (B : FVec Ideal ⟨2, ![k, n]⟩ φ₂) (a : Fin m) (b : Fin n) :
    matmul (D2 w) prec A B (constant ⟨2, ![m, n]⟩ .f32 0x00000000#32) (ix2 a b) = ∑ c : Fin k, A (ix2 a c) * B (ix2 c b) := by
  show FloatOps.matmul _ prec A B _ (ix2 a b) = _
  rw [Ideal.matmul_constant_zero_apply, ← Equiv.sum_comp (contrEquiv1 (D2 w) k rfl rfl).symm]
  refine Finset.sum_congr rfl fun c _ => ?_
  rw [lhsIdx_D2, rhsIdx_D2]

/-! ## Broadcasts of a one-row bias and of a scalar, at an entry -/

/-- A [1, D] row broadcast along the rows of [N, D] reads, at (r, q), the row at q. -/
theorem bcastRow_at {N D : Nat} {α : Type} (h : (⟨2, ![1, D]⟩ : Shape).BroadcastsInDim ⟨2, ![N, D]⟩ (![0, 1] : Fin 2 → Fin 2))
    (v : (⟨2, ![1, D]⟩ : Shape).Idx → α) (r : Fin N) (q : Fin D) :
    broadcastInDim ⟨2, ![N, D]⟩ (![0, 1] : Fin 2 → Fin 2) h v (ix2 r q) = v (ix2 (0 : Fin 1) q) := by
  refine broadcastInDim_apply _ h v (ix2 r q) (ix2 (0 : Fin 1) q) fun ax => ?_
  match ax with
  | ⟨0, _⟩ => rfl
  | ⟨1, _⟩ =>
    show q.val = if D = 1 then 0 else q.val
    split
    · have := q.isLt; omega
    · rfl

/-- A scalar broadcast to [N, D] reads the scalar everywhere. -/
theorem bcastScalar_at {N D : Nat} {α : Type} (h : (⟨0, ![]⟩ : Shape).BroadcastsInDim ⟨2, ![N, D]⟩ (![] : Fin 0 → Fin 2))
    (v : (⟨0, ![]⟩ : Shape).Idx → α) (i : (⟨2, ![N, D]⟩ : Shape).Idx) :
    broadcastInDim ⟨2, ![N, D]⟩ (![] : Fin 0 → Fin 2) h v i = v ix0 :=
  broadcastInDim_apply _ h v i ix0 fun ax => ax.elim0

/-- A [D] vector viewed as its one row [1, D] is the vector broadcast along a new leading unit axis: both read the
    vector's entry i at (0, i). -/
theorem rowCast_eq_bcast {D : Nat} {α : Type} (x : (⟨1, ![D]⟩ : Shape).Idx → α) (h : (⟨1, ![D]⟩ : Shape).ShapeCasts ⟨2, ![1, D]⟩)
    (h' : (⟨1, ![D]⟩ : Shape).BroadcastsInDim ⟨2, ![1, D]⟩ (![1] : Fin 1 → Fin 2)) :
    shapeCast ⟨2, ![1, D]⟩ x h = broadcastInDim ⟨2, ![1, D]⟩ (![1] : Fin 1 → Fin 2) h' x := by
  funext j
  obtain ⟨u, i, rfl⟩ : ∃ (u : Fin 1) (i : Fin D), j = ix2 u i := ⟨j 0, j 1, eq_ix2 j⟩
  rw [shapeCast_a_1a_apply]
  refine (broadcastInDim_apply _ h' x (ix2 u i) (ix1 i) fun ax => ?_).symm
  match ax with
  | ⟨0, _⟩ =>
    show i.val = if D = 1 then 0 else i.val
    split
    · have := i.isLt; omega
    · rfl

/-! ## The perceptron at an entry -/

/-- The value at (r, q): the second layer's rectified affine map of the first layer's. -/
def mlpVal {N K D : Nat} (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) : Ideal .f32 :=
  max ((∑ j : Fin D, max ((∑ i : Fin K, x (ix2 r i) * wa (ix2 i j)) + ba (ix2 (0 : Fin 1) j)) (Ideal.ofBits .f32 0x00000000#32) * wb (ix2 j q))
    + bb (ix2 (0 : Fin 1) q)) (Ideal.ofBits .f32 0x00000000#32)

/-- The value at row r depends only on row r of x: two inputs with equal rows give equal values. -/
theorem mlpVal_congr_row {N N' K D : Nat} (x : FVec Ideal ⟨2, ![N, K]⟩ .f32) (x' : FVec Ideal ⟨2, ![N', K]⟩ .f32)
    (wa : FVec Ideal ⟨2, ![K, D]⟩ .f32) (ba : FVec Ideal ⟨2, ![1, D]⟩ .f32) (wb : FVec Ideal ⟨2, ![D, D]⟩ .f32) (bb : FVec Ideal ⟨2, ![1, D]⟩ .f32)
    (r : Fin N) (r' : Fin N') (hrow : ∀ i : Fin K, x (ix2 r i) = x' (ix2 r' i)) (q : Fin D) :
    mlpVal x wa ba wb bb r q = mlpVal x' wa ba wb bb r' q := by
  unfold mlpVal
  simp only [hrow]

/-- The host's spelling: two `dot_general`s, the biases broadcast along the rows, each rectifier a maximum with a
    broadcast zero. -/
def mlpHost {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![N, D]⟩ .f32 :=
  maximumf (addf (Host.dotGeneral (D2 wB) none
      (maximumf (addf (Host.dotGeneral (D2 wA) none x wa) (broadcastInDim ⟨2, ![N, D]⟩ (![0, 1] : Fin 2 → Fin 2) hb ba))
        (broadcastInDim ⟨2, ![N, D]⟩ (![] : Fin 0 → Fin 2) hz (constant (F := Ideal) ⟨0, ![]⟩ .f32 0x00000000#32))) wb)
      (broadcastInDim ⟨2, ![N, D]⟩ (![0, 1] : Fin 2 → Fin 2) hb bb))
    (broadcastInDim ⟨2, ![N, D]⟩ (![] : Fin 0 → Fin 2) hz (constant (F := Ideal) ⟨0, ![]⟩ .f32 0x00000000#32))

theorem mlpHost_at {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (x : FVec Ideal ⟨2, ![N, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (r : Fin N) (q : Fin D) :
    mlpHost wA wB hb hz x wa ba wb bb (ix2 r q) = mlpVal x wa ba wb bb r q := by
  unfold mlpHost mlpVal
  rw [maximumf_apply, addf_apply, dotGeneral_at, bcastRow_at, bcastScalar_at, constant_apply]
  refine congrArg (fun s => max (s + bb (ix2 (0 : Fin 1) q)) (Ideal.ofBits .f32 0x00000000#32)) ?_
  refine Finset.sum_congr rfl fun j _ => ?_
  rw [maximumf_apply, addf_apply, dotGeneral_at, bcastRow_at, bcastScalar_at, constant_apply]

/-- The host's spelling with the biases given as vectors [D], each made a row by a broadcast along a new unit axis. -/
def mlpHostV {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) : FVec Ideal ⟨2, ![N, D]⟩ .f32 :=
  mlpHost wA wB hb hz x wa (broadcastInDim ⟨2, ![1, D]⟩ (![1] : Fin 1 → Fin 2) hr ba) wb
    (broadcastInDim ⟨2, ![1, D]⟩ (![1] : Fin 1 → Fin 2) hr bb)

/-- With the biases reshaped to one row instead: the same array. -/
theorem mlpHost_rowCast {N K D : Nat} (wA : DotDims.WF ⟨2, ![N, K]⟩ ⟨2, ![K, D]⟩ ⟨2, ![N, D]⟩ [1] [0] [0] [1] [] [])
    (wB : DotDims.WF ⟨2, ![N, D]⟩ ⟨2, ![D, D]⟩ ⟨2, ![N, D]⟩ [1] [0] [0] [1] [] [])
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (hr : (⟨1, ![D]⟩ : Shape).BroadcastsInDim ⟨2, ![1, D]⟩ (![1] : Fin 1 → Fin 2))
    (hc : (⟨1, ![D]⟩ : Shape).ShapeCasts ⟨2, ![1, D]⟩)
    (x : FVec Ideal ⟨2, ![N, K]⟩ .f32) (wa : FVec Ideal ⟨2, ![K, D]⟩ .f32) (ba : FVec Ideal ⟨1, ![D]⟩ .f32)
    (wb : FVec Ideal ⟨2, ![D, D]⟩ .f32) (bb : FVec Ideal ⟨1, ![D]⟩ .f32) :
    mlpHost wA wB hb hz x wa (shapeCast ⟨2, ![1, D]⟩ ba hc) wb (shapeCast ⟨2, ![1, D]⟩ bb hc)
      = mlpHostV wA wB hb hz hr x wa ba wb bb := by
  unfold mlpHostV
  rw [rowCast_eq_bcast ba hc hr, rowCast_eq_bcast bb hc hr]

/-- A tile's spelling: the operands narrowed to bf16, two products into a zero accumulator, the biases broadcast as
    vectors, each rectifier a maximum with a splat zero. -/
def mlpTile {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) : FVec Ideal ⟨2, ![T, D]⟩ .f32 :=
  maximumf (addf (matmul (D2 wB) none
      (truncf .bf16 (maximumf (addf (matmul (D2 wA) none (truncf .bf16 x hlt) (truncf .bf16 wa hlt) (constant ⟨2, ![T, D]⟩ .f32 0x00000000#32))
          (broadcastTo ⟨2, ![T, D]⟩ ba hb)) (broadcast ⟨2, ![T, D]⟩ (Scalar.ofBits (F := Ideal) .f32 0x00000000#32))) hlt)
      (truncf .bf16 wb hlt) (constant ⟨2, ![T, D]⟩ .f32 0x00000000#32))
      (broadcastTo ⟨2, ![T, D]⟩ bb hb))
    (broadcast ⟨2, ![T, D]⟩ (Scalar.ofBits (F := Ideal) .f32 0x00000000#32))

theorem mlpTile_at {T K D : Nat} (wA : DotDims.WF ⟨2, ![T, K]⟩ ⟨2, ![K, D]⟩ ⟨2, ![T, D]⟩ [1] [0] [0] [1] [] [])
    (wB : DotDims.WF ⟨2, ![T, D]⟩ ⟨2, ![D, D]⟩ ⟨2, ![T, D]⟩ [1] [0] [0] [1] [] [])
    (hb : (⟨2, ![1, D]⟩ : Shape).Broadcasts ⟨2, ![T, D]⟩) (hlt : FTy.bf16.bits < FTy.f32.bits)
    (x : FVec Ideal ⟨2, ![T, K]⟩ .f32) (wa : FVec Ideal ⟨2, ![K, D]⟩ .f32) (ba : FVec Ideal ⟨2, ![1, D]⟩ .f32)
    (wb : FVec Ideal ⟨2, ![D, D]⟩ .f32) (bb : FVec Ideal ⟨2, ![1, D]⟩ .f32) (p : Fin T) (q : Fin D) :
    mlpTile wA wB hb hlt x wa ba wb bb (ix2 p q) = mlpVal x wa ba wb bb p q := by
  unfold mlpTile mlpVal
  rw [maximumf_apply, addf_apply, matmul_zero_at, broadcastTo_1b_ab_apply, broadcast_apply]
  refine congrArg (fun s => max (s + bb (ix2 (0 : Fin 1) q)) (Ideal.ofBits .f32 0x00000000#32)) ?_
  refine Finset.sum_congr rfl fun j _ => ?_
  rw [truncf_apply, truncf_apply, maximumf_apply, addf_apply, matmul_zero_at, broadcastTo_1b_ab_apply, broadcast_apply]
  refine congrArg (fun s => max (s + ba (ix2 (0 : Fin 1) j)) (Ideal.ofBits .f32 0x00000000#32) * wb (ix2 j q)) ?_
  refine Finset.sum_congr rfl fun i _ => ?_
  rw [truncf_apply, truncf_apply]

end Cert.Mlp

end
-- ==== Proof.Blocks.lean ====
/-
  One block of rows against the whole array, entry by entry, at the ideal values.

  The pipelined regions of the program work on blocks of T rows of an [N, D] array. Two kinds of block computation occur:
  a block of rows times a whole [K, D] matrix (both operands narrowed to bf16 first, which keeps the ideal value, the
  product accumulated into zeros), and a block of rows plus a one-row bias, with or without a rectifier. Each lemma here
  says that the block computation at the entry (p, q) of the block is the whole-array host computation at the entry
  (r, q), where row p of the block is row r of the array. Nothing asks for finite entries: a matrix product is the same
  sum over the contracted coordinate in both spellings, and a sum or a maximum of two entries is the same operation on
  the same two extended reals.
-/
import proofs.«176149_j30477087933020_1_alg».proof.Proof.LibMlpAt

noncomputable section

open scoped BigOperators

namespace Cert.Blocks

open Idealize.ShloMosaic Idealize.ShloMosaic.ValueIdx

variable {T N K D : Nat}

/-- ROWS OF A PRODUCT. If row p of the block `xb` is row r of `X` and column q of `wb` is column q of `W`, the block
    product into zeros at (p, q) is the host's product `X · W` at (r, q): both are the sum over c of X[r,c] · W[c,q]. -/
theorem matmul_rows (w : DotDims.WF ⟨2, ![T, K]⟩ ⟨2, ![K, D]⟩ ⟨2, ![T, D]⟩ [1] [0] [0] [1] [] [])
    (w' : DotDims.WF ⟨2, ![N, K]⟩ ⟨2, ![K, D]⟩ ⟨2, ![N, D]⟩ [1] [0] [0] [1] [] [])
    (hlt : FTy.bf16.bits < FTy.f32.bits) (prec prec' : Option ContractPrecision)
    (X : FVec Ideal ⟨2, ![N, K]⟩ .f32) (W : FVec Ideal ⟨2, ![K, D]⟩ .f32)
    (xb : FVec Ideal ⟨2, ![T, K]⟩ .f32) (wb : FVec Ideal ⟨2, ![K, D]⟩ .f32)
    (p : Fin T) (q : Fin D) (r : Fin N)
    (hx : ∀ c : Fin K, xb (ix2 p c) = X (ix2 r c)) (hw : ∀ c : Fin K, wb (ix2 c q) = W (ix2 c q)) :
    matmul (Cert.Mlp.D2 w) prec (truncf .bf16 xb hlt) (truncf .bf16 wb hlt) (constant ⟨2, ![T, D]⟩ .f32 0x00000000#32) (ix2 p q)
      = Host.dotGeneral (Cert.Mlp.D2 w') prec' X W (ix2 r q) := by
  rw [Cert.Mlp.matmul_zero_at, Cert.Mlp.dotGeneral_at]
  refine Finset.sum_congr rfl fun c _ => ?_
  rw [truncf_apply, truncf_apply, hx c, hw c]

/-- A ROW BLOCK PLUS THE BIAS ROW. If entry (p, q) of the block `xb` is entry (r, q) of `A` and the bias rows agree at q,
    the block's sum with the bias row broadcast over its rows is, at (p, q), the host's sum of `A` with the bias row
    broadcast over all rows, at (r, q). -/
theorem bias_rows (hbT : (⟨2, ![1, D]⟩ : Shape).Broadcasts ⟨2, ![T, D]⟩)
    (hb : (⟨2, ![1, D]⟩ : Shape).BroadcastsInDim ⟨2, ![N, D]⟩ (![0, 1] : Fin 2 → Fin 2))
    (A : FVec Ideal ⟨2, ![N, D]⟩ .f32) (B : FVec Ideal ⟨2, ![1, D]⟩ .f32)
    (xb : FVec Ideal ⟨2, ![T, D]⟩ .f32) (bb : FVec Ideal ⟨2, ![1, D]⟩ .f32)
    (p : Fin T) (q : Fin D) (r : Fin N)
    (hx : xb (ix2 p q) = A (ix2 r q)) (hbq : bb (ix2 (0 : Fin 1) q) = B (ix2 (0 : Fin 1) q)) :
    addf xb (broadcastTo ⟨2, ![T, D]⟩ bb hbT) (ix2 p q)
      = addf A (broadcastInDim ⟨2, ![N, D]⟩ (![0, 1] : Fin 2 → Fin 2) hb B) (ix2 r q) := by
  rw [addf_apply, addf_apply, broadcastTo_1b_ab_apply, Cert.Mlp.bcastRow_at, hx, hbq]

/-- THE SAME WITH THE RECTIFIER: the maximum with a splat zero in the block, with a broadcast zero on the host. -/
theorem biasRelu_rows (hbT : (⟨2, ![1, D]⟩ : Shape).Broadcasts ⟨2, ![T, D]⟩)
    (hb : (⟨2, ![1, D]⟩ : Shape).BroadcastsInDim ⟨2, ![N, D]⟩ (![0, 1] : Fin 2 → Fin 2))
    (hz : (⟨0, ![]⟩ : Shape).BroadcastsInDim ⟨2, ![N, D]⟩ (![] : Fin 0 → Fin 2))
    (A : FVec Ideal ⟨2, ![N, D]⟩ .f32) (B : FVec Ideal ⟨2, ![1, D]⟩ .f32)
    (xb : FVec Ideal ⟨2, ![T, D]⟩ .f32) (bb : FVec Ideal ⟨2, ![1, D]⟩ .f32)
    (p : Fin T) (q : Fin D) (r : Fin N)
    (hx : xb (ix2 p q) = A (ix2 r q)) (hbq : bb (ix2 (0 : Fin 1) q) = B (ix2 (0 : Fin 1) q)) :
    maximumf (addf xb (broadcastTo ⟨2, ![T, D]⟩ bb hbT)) (broadcast ⟨2, ![T, D]⟩ (Scalar.ofBits (F := Ideal) .f32 0x00000000#32)) (ix2 p q)
      = maximumf (addf A (broadcastInDim ⟨2, ![N, D]⟩ (![0, 1] : Fin 2 → Fin 2) hb B))
          (broadcastInDim ⟨2, ![N, D]⟩ (![] : Fin 0 → Fin 2) hz (constant (F := Ideal) ⟨0, ![]⟩ .f32 0x00000000#32)) (ix2 r q) := by
  rw [maximumf_apply, maximumf_apply, bias_rows hbT hb A B xb bb p q r hx hbq, broadcast_apply, Cert.Mlp.bcastScalar_at,
    constant_apply]
  rfl

end Cert.Blocks

end
-- ==== Proof.RegionsMM.lean ====
/-
  The three matrix-product regions, each read as one whole-array function.

  Each of these regions runs over ten grid points; point t takes rows 10000·t … 10000·t + 9999 of its left operand (an
  [100000, 64] array) and the whole [64, 64] right operand, narrows both to bf16 (the identity on ideal values), multiplies
  them into a zero accumulator and writes the [10000, 64] product back as rows 10000·t … of the output array. Entry (p, q) of
  that block is the sum over k of X[10000·t + p, k] · W[k, q], which is entry (10000·t + p, q) of the host's product X · W;
  the ten blocks tile the output array, so after the region the array is the host's product of the operand arrays as the
  region found them.
-/
import proofs.«176149_j30477087933020_1_alg».proof.Proof.Gen.KernelIdeal.Frame
import proofs.«176149_j30477087933020_1_alg».proof.Proof.Gen.ReferenceIdeal
import proofs.«176149_j30477087933020_1_alg».proof.Proof.Blocks
import Idealize.ShloMosaic.Lib.Pipeline.Value

set_option maxRecDepth 16384

noncomputable section

namespace Cert.KernelIdeal.RegionsMM

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 0: a block of 10000 rows of `main_arg0` times all of `main_arg2` -/

/-- The block product at (p, q) is the host's whole product at (r, q) when row p of the block is row r of the array. -/
theorem pay0_at (x0 : FVec Ideal S10000x64 .f32) (x1 : FVec Ideal S64x64 .f32)
    (X : FVec Ideal Cert.ReferenceIdeal.S100000x64 .f32) (W : FVec Ideal Cert.ReferenceIdeal.S64x64 .f32)
    (p : Fin 10000) (q : Fin 64) (r : Fin 100000)
    (hx : ∀ k : Fin 64, x0 (ix2 p k) = X (ix2 r k)) (hw : ∀ k : Fin 64, x1 (ix2 k q) = W (ix2 k q)) :
    k0_pay1 x0 x1 (ix2 p q)
      = Host.dotGeneral Cert.ReferenceIdeal.dot_S100000x64_S64x64_S100000x64_1_0_0_1_n_n none X W (ix2 r q) := by
  show matmul (F := Ideal) dot_S10000x64_S64x64_S10000x64_1_0_0_1_n_n none (truncf .bf16 x0 bitsLt_bf16_f32)
      (truncf .bf16 x1 bitsLt_bf16_f32) (constant S10000x64 .f32 0x00000000#32) (ix2 p q) = _
  exact Cert.Blocks.matmul_rows _ _ bitsLt_bf16_f32 none none X W x0 x1 p q r hx hw

/-- What the region's output array ends holding: the host's product of its two operand arrays as the region finds them. -/
abbrev G0 (c : Dev nD) : Cert.ReferenceIdeal.S100000x64.Idx → Ideal .f32 :=
  Host.dotGeneral (F := Ideal) (φ₁ := .f32) (φ₂ := .f32) Cert.ReferenceIdeal.dot_S100000x64_S64x64_S100000x64_1_0_0_1_n_n none
    (V c main_arg0 : FVec Ideal Cert.ReferenceIdeal.S100000x64 .f32) (V c main_arg2 : FVec Ideal Cert.ReferenceIdeal.S64x64 .f32)

/-- The printed index maps over the grid: point t works on the t-th block of rows, against the whole right operand. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- Every block of rows is some point's. -/
theorem onto0 : ∀ q0 : Fin 10, ∃ t : Fin cfg0.N, win0_2.index t = ![q0.val, 0] :=
  (by decide +kernel : ∀ q0 : Fin 10, ∃ t : Fin grid0.N, win0_2.index t = ![q0.val, 0])

/-- What point t writes back is block t of the whole product. -/
theorem flushed0 (c : Dev nD) (t : Fin cfg0.N) :
    (dat0 V c).flushed 2 t = ((cfg0.win 2).blk t).view.read (Elt Ideal) (G0 V c) := by
  show (cfg0.win 2).cut (grid0.coords t) ((dat0 V c).after 2 t) = _
  rw [after0_2]
  unfold out0_2
  rw [View.canon_unit_zero hz]
  simp only [View.ld_unit_zero (S := S10000x64) hz, View.ld_unit_zero (S := S64x64) hz]
  obtain ⟨e00, e01, e10, e11, e20, e21⟩ := idx0 t
  have hN : t.val < 10 := Nat.lt_of_lt_of_eq t.isLt N_0
  funext y
  obtain ⟨p, q, rfl⟩ : ∃ (p : Fin 10000) (q : Fin 64), y = ix2 p q := ⟨y 0, y 1, eq_ix2 y⟩
  rw [View.read_apply]
  have hr : t.val * 10000 + p.val < 100000 := by have := p.isLt; omega
  refine (pay0_at (iblk0 V c 0 t) (iblk0 V c 1 t) (V c main_arg0) (V c main_arg2) p q ⟨t.val * 10000 + p.val, hr⟩ ?_ ?_).trans ?_
  · intro k
    show V c main_arg0 (((cfg0.win 0).blk t).view.emb (ix2 p k)) = V c main_arg0 (ix2 ⟨t.val * 10000 + p.val, hr⟩ k)
    refine congrArg (V c main_arg0) ?_
    funext a; apply Fin.ext
    match a with
    | ⟨0, _⟩ => show win0_0.index t (0 : Fin 2) * 10000 + 1 * p.val = t.val * 10000 + p.val; rw [e00]; omega
    | ⟨1, _⟩ => show win0_0.index t (1 : Fin 2) * 64 + 1 * k.val = k.val; rw [e01]; omega
  · intro k
    show V c main_arg2 (((cfg0.win 1).blk t).view.emb (ix2 k q)) = V c main_arg2 (ix2 k q)
    refine congrArg (V c main_arg2) ?_
    funext a; apply Fin.ext
    match a with
    | ⟨0, _⟩ => show win0_1.index t (0 : Fin 2) * 64 + 1 * k.val = k.val; rw [e10]; omega
    | ⟨1, _⟩ => show win0_1.index t (1 : Fin 2) * 64 + 1 * q.val = q.val; rw [e11]; omega
  · show G0 V c (ix2 ⟨t.val * 10000 + p.val, hr⟩ q) = G0 V c (((cfg0.win 2).blk t).view.emb (ix2 p q))
    refine congrArg (G0 V c) ?_
    funext a; apply Fin.ext
    match a with
    | ⟨0, _⟩ => show t.val * 10000 + p.val = win0_2.index t (0 : Fin 2) * 10000 + 1 * p.val; rw [e20]; omega
    | ⟨1, _⟩ => show q.val = win0_2.index t (1 : Fin 2) * 64 + 1 * q.val; rw [e21]; omega

/-- An index of the output array is in point t's block iff each coordinate is in the block's range on its axis. -/
theorem mem_blk0 (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v32).slice (win0_2.rect t)).set ↔ _
  rw [View.set_slice_whole, Rect.mem_set_unit]
  exact Iff.rfl

/-- The ten blocks of rows cover the array: row r is in the block of point r / 10000. -/
theorem cover0 (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := onto0 ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk0]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT ARRAY after the region: the host's product of the two operand arrays as the region finds them. -/
theorem arr0 (c : Dev nD) : (dat0 V c).arrAt 2 cfg0.N = G0 V c :=
  (dat0 V c).arrAt_eq_of_cover 2 (G0 V c) (fun t _ => flushed0 V c t) (cover0)

/-- The same with the two operand arrays named. -/
theorem arr0_of (c : Dev nD) (X : FVec Ideal Cert.ReferenceIdeal.S100000x64 .f32) (W : FVec Ideal Cert.ReferenceIdeal.S64x64 .f32)
    (hX : V c main_arg0 = X) (hW : V c main_arg2 = W) :
    (dat0 V c).arrAt 2 cfg0.N
      = Host.dotGeneral (F := Ideal) (φ₁ := .f32) (φ₂ := .f32) Cert.ReferenceIdeal.dot_S100000x64_S64x64_S100000x64_1_0_0_1_n_n none X W := by
  rw [arr0]; subst hX hW; rfl

/-! ## Region 2: a block of 10000 rows of `main_v47` times all of `main_arg4` -/

/-- The block product at (p, q) is the host's whole product at (r, q) when row p of the block is row r of the array. -/
theorem pay2_at (x0 : FVec Ideal S10000x64 .f32) (x1 : FVec Ideal S64x64 .f32)
    (X : FVec Ideal Cert.ReferenceIdeal.S100000x64 .f32) (W : FVec Ideal Cert.ReferenceIdeal.S64x64 .f32)
    (p : Fin 10000) (q : Fin 64) (r : Fin 100000)
    (hx : ∀ k : Fin 64, x0 (ix2 p k) = X (ix2 r k)) (hw : ∀ k : Fin 64, x1 (ix2 k q) = W (ix2 k q)) :
    k2_pay1 x0 x1 (ix2 p q)
      = Host.dotGeneral Cert.ReferenceIdeal.dot_S100000x64_S64x64_S100000x64_1_0_0_1_n_n none X W (ix2 r q) := by
  show matmul (F := Ideal) dot_S10000x64_S64x64_S10000x64_1_0_0_1_n_n none (truncf .bf16 (shapeCast S10000x64 x0 shapeCasts_S10000x64_S10000x64) bitsLt_bf16_f32)
      (truncf .bf16 x1 bitsLt_bf16_f32) (constant S10000x64 .f32 0x00000000#32) (ix2 p q) = _
  rw [shapeCast_self]
  exact Cert.Blocks.matmul_rows _ _ bitsLt_bf16_f32 none none X W x0 x1 p q r hx hw

/-- What the region's output array ends holding: the host's product of its two operand arrays as the region finds them. -/
abbrev G2 (c : Dev nD) : Cert.ReferenceIdeal.S100000x64.Idx → Ideal .f32 :=
  Host.dotGeneral (F := Ideal) (φ₁ := .f32) (φ₂ := .f32) Cert.ReferenceIdeal.dot_S100000x64_S64x64_S100000x64_1_0_0_1_n_n none
    (V c main_v47 : FVec Ideal Cert.ReferenceIdeal.S100000x64 .f32) (V c main_arg4 : FVec Ideal Cert.ReferenceIdeal.S64x64 .f32)

/-- The printed index maps over the grid: point t works on the t-th block of rows, against the whole right operand. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Every block of rows is some point's. -/
theorem onto2 : ∀ q0 : Fin 10, ∃ t : Fin cfg2.N, win2_2.index t = ![q0.val, 0] :=
  (by decide +kernel : ∀ q0 : Fin 10, ∃ t : Fin grid2.N, win2_2.index t = ![q0.val, 0])

/-- What point t writes back is block t of the whole product. -/
theorem flushed2 (c : Dev nD) (t : Fin cfg2.N) :
    (dat2 V c).flushed 2 t = ((cfg2.win 2).blk t).view.read (Elt Ideal) (G2 V c) := by
  show (cfg2.win 2).cut (grid2.coords t) ((dat2 V c).after 2 t) = _
  rw [after2_2]
  unfold out2_2
  rw [View.canon_unit_zero hz]
  simp only [View.ld_unit_zero (S := S10000x64) hz, View.ld_unit_zero (S := S64x64) hz]
  obtain ⟨e00, e01, e10, e11, e20, e21⟩ := idx2 t
  have hN : t.val < 10 := Nat.lt_of_lt_of_eq t.isLt N_2
  funext y
  obtain ⟨p, q, rfl⟩ : ∃ (p : Fin 10000) (q : Fin 64), y = ix2 p q := ⟨y 0, y 1, eq_ix2 y⟩
  rw [View.read_apply]
  have hr : t.val * 10000 + p.val < 100000 := by have := p.isLt; omega
  refine (pay2_at (iblk2 V c 0 t) (iblk2 V c 1 t) (V c main_v47) (V c main_arg4) p q ⟨t.val * 10000 + p.val, hr⟩ ?_ ?_).trans ?_
  · intro k
    show V c main_v47 (((cfg2.win 0).blk t).view.emb (ix2 p k)) = V c main_v47 (ix2 ⟨t.val * 10000 + p.val, hr⟩ k)
    refine congrArg (V c main_v47) ?_
    funext a; apply Fin.ext
    match a with
    | ⟨0, _⟩ => show win2_0.index t (0 : Fin 2) * 10000 + 1 * p.val = t.val * 10000 + p.val; rw [e00]; omega
    | ⟨1, _⟩ => show win2_0.index t (1 : Fin 2) * 64 + 1 * k.val = k.val; rw [e01]; omega
  · intro k
    show V c main_arg4 (((cfg2.win 1).blk t).view.emb (ix2 k q)) = V c main_arg4 (ix2 k q)
    refine congrArg (V c main_arg4) ?_
    funext a; apply Fin.ext
    match a with
    | ⟨0, _⟩ => show win2_1.index t (0 : Fin 2) * 64 + 1 * k.val = k.val; rw [e10]; omega
    | ⟨1, _⟩ => show win2_1.index t (1 : Fin 2) * 64 + 1 * q.val = q.val; rw [e11]; omega
  · show G2 V c (ix2 ⟨t.val * 10000 + p.val, hr⟩ q) = G2 V c (((cfg2.win 2).blk t).view.emb (ix2 p q))
    refine congrArg (G2 V c) ?_
    funext a; apply Fin.ext
    match a with
    | ⟨0, _⟩ => show t.val * 10000 + p.val = win2_2.index t (0 : Fin 2) * 10000 + 1 * p.val; rw [e20]; omega
    | ⟨1, _⟩ => show q.val = win2_2.index t (1 : Fin 2) * 64 + 1 * q.val; rw [e21]; omega

/-- An index of the output array is in point t's block iff each coordinate is in the block's range on its axis. -/
theorem mem_blk2 (t : Fin cfg2.N) (i : S100000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v48).slice (win2_2.rect t)).set ↔ _
  rw [View.set_slice_whole, Rect.mem_set_unit]
  exact Iff.rfl

/-- The ten blocks of rows cover the array: row r is in the block of point r / 10000. -/
theorem cover2 (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := onto2 ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk2]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE OUTPUT ARRAY after the region: the host's product of the two operand arrays as the region finds them. -/
theorem arr2 (c : Dev nD) : (dat2 V c).arrAt 2 cfg2.N = G2 V c :=
  (dat2 V c).arrAt_eq_of_cover 2 (G2 V c) (fun t _ => flushed2 V c t) (cover2)

/-- The same with the two operand arrays named. -/
theorem arr2_of (c : Dev nD) (X : FVec Ideal Cert.ReferenceIdeal.S100000x64 .f32) (W : FVec Ideal Cert.ReferenceIdeal.S64x64 .f32)
    (hX : V c main_v47 = X) (hW : V c main_arg4 = W) :
    (dat2 V c).arrAt 2 cfg2.N
      = Host.dotGeneral (F := Ideal) (φ₁ := .f32) (φ₂ := .f32) Cert.ReferenceIdeal.dot_S100000x64_S64x64_S100000x64_1_0_0_1_n_n none X W := by
  rw [arr2]; subst hX hW; rfl

/-! ## Region 4: a block of 10000 rows of `main_v63` times all of `main_arg6` -/

/-- The block product at (p, q) is the host's whole product at (r, q) when row p of the block is row r of the array. -/
theorem pay4_at (x0 : FVec Ideal S10000x64 .f32) (x1 : FVec Ideal S64x64 .f32)
    (X : FVec Ideal Cert.ReferenceIdeal.S100000x64 .f32) (W : FVec Ideal Cert.ReferenceIdeal.S64x64 .f32)
    (p : Fin 10000) (q : Fin 64) (r : Fin 100000)
    (hx : ∀ k : Fin 64, x0 (ix2 p k) = X (ix2 r k)) (hw : ∀ k : Fin 64, x1 (ix2 k q) = W (ix2 k q)) :
    k4_pay1 x0 x1 (ix2 p q)
      = Host.dotGeneral Cert.ReferenceIdeal.dot_S100000x64_S64x64_S100000x64_1_0_0_1_n_n none X W (ix2 r q) := by
  show matmul (F := Ideal) dot_S10000x64_S64x64_S10000x64_1_0_0_1_n_n none (truncf .bf16 (shapeCast S10000x64 x0 shapeCasts_S10000x64_S10000x64) bitsLt_bf16_f32)
      (truncf .bf16 x1 bitsLt_bf16_f32) (constant S10000x64 .f32 0x00000000#32) (ix2 p q) = _
  rw [shapeCast_self]
  exact Cert.Blocks.matmul_rows _ _ bitsLt_bf16_f32 none none X W x0 x1 p q r hx hw

/-- What the region's output array ends holding: the host's product of its two operand arrays as the region finds them. -/
abbrev G4 (c : Dev nD) : Cert.ReferenceIdeal.S100000x64.Idx → Ideal .f32 :=
  Host.dotGeneral (F := Ideal) (φ₁ := .f32) (φ₂ := .f32) Cert.ReferenceIdeal.dot_S100000x64_S64x64_S100000x64_1_0_0_1_n_n none
    (V c main_v63 : FVec Ideal Cert.ReferenceIdeal.S100000x64 .f32) (V c main_arg6 : FVec Ideal Cert.ReferenceIdeal.S64x64 .f32)

/-- The printed index maps over the grid: point t works on the t-th block of rows, against the whole right operand. -/
theorem idx4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

/-- Every block of rows is some point's. -/
theorem onto4 : ∀ q0 : Fin 10, ∃ t : Fin cfg4.N, win4_2.index t = ![q0.val, 0] :=
  (by decide +kernel : ∀ q0 : Fin 10, ∃ t : Fin grid4.N, win4_2.index t = ![q0.val, 0])

/-- What point t writes back is block t of the whole product. -/
theorem flushed4 (c : Dev nD) (t : Fin cfg4.N) :
    (dat4 V c).flushed 2 t = ((cfg4.win 2).blk t).view.read (Elt Ideal) (G4 V c) := by
  show (cfg4.win 2).cut (grid4.coords t) ((dat4 V c).after 2 t) = _
  rw [after4_2]
  unfold out4_2
  rw [View.canon_unit_zero hz]
  simp only [View.ld_unit_zero (S := S10000x64) hz, View.ld_unit_zero (S := S64x64) hz]
  obtain ⟨e00, e01, e10, e11, e20, e21⟩ := idx4 t
  have hN : t.val < 10 := Nat.lt_of_lt_of_eq t.isLt N_4
  funext y
  obtain ⟨p, q, rfl⟩ : ∃ (p : Fin 10000) (q : Fin 64), y = ix2 p q := ⟨y 0, y 1, eq_ix2 y⟩
  rw [View.read_apply]
  have hr : t.val * 10000 + p.val < 100000 := by have := p.isLt; omega
  refine (pay4_at (iblk4 V c 0 t) (iblk4 V c 1 t) (V c main_v63) (V c main_arg6) p q ⟨t.val * 10000 + p.val, hr⟩ ?_ ?_).trans ?_
  · intro k
    show V c main_v63 (((cfg4.win 0).blk t).view.emb (ix2 p k)) = V c main_v63 (ix2 ⟨t.val * 10000 + p.val, hr⟩ k)
    refine congrArg (V c main_v63) ?_
    funext a; apply Fin.ext
    match a with
    | ⟨0, _⟩ => show win4_0.index t (0 : Fin 2) * 10000 + 1 * p.val = t.val * 10000 + p.val; rw [e00]; omega
    | ⟨1, _⟩ => show win4_0.index t (1 : Fin 2) * 64 + 1 * k.val = k.val; rw [e01]; omega
  · intro k
    show V c main_arg6 (((cfg4.win 1).blk t).view.emb (ix2 k q)) = V c main_arg6 (ix2 k q)
    refine congrArg (V c main_arg6) ?_
    funext a; apply Fin.ext
    match a with
    | ⟨0, _⟩ => show win4_1.index t (0 : Fin 2) * 64 + 1 * k.val = k.val; rw [e10]; omega
    | ⟨1, _⟩ => show win4_1.index t (1 : Fin 2) * 64 + 1 * q.val = q.val; rw [e11]; omega
  · show G4 V c (ix2 ⟨t.val * 10000 + p.val, hr⟩ q) = G4 V c (((cfg4.win 2).blk t).view.emb (ix2 p q))
    refine congrArg (G4 V c) ?_
    funext a; apply Fin.ext
    match a with
    | ⟨0, _⟩ => show t.val * 10000 + p.val = win4_2.index t (0 : Fin 2) * 10000 + 1 * p.val; rw [e20]; omega
    | ⟨1, _⟩ => show q.val = win4_2.index t (1 : Fin 2) * 64 + 1 * q.val; rw [e21]; omega

/-- An index of the output array is in point t's block iff each coordinate is in the block's range on its axis. -/
theorem mem_blk4 (t : Fin cfg4.N) (i : S100000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v64).slice (win4_2.rect t)).set ↔ _
  rw [View.set_slice_whole, Rect.mem_set_unit]
  exact Iff.rfl

/-- The ten blocks of rows cover the array: row r is in the block of point r / 10000. -/
theorem cover4 (i : S100000x64.Idx) :
    ∃ t : Fin cfg4.N, (cfg4.win 2).flush t = true ∧ i ∈ ((cfg4.win 2).blk t).view.set := by
  have hi0 : (i 0).val < 100000 := (i 0).isLt
  have hi1 : (i 1).val < 64 := (i 1).isLt
  obtain ⟨t, ht⟩ := onto4 ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk4]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- THE OUTPUT ARRAY after the region: the host's product of the two operand arrays as the region finds them. -/
theorem arr4 (c : Dev nD) : (dat4 V c).arrAt 2 cfg4.N = G4 V c :=
  (dat4 V c).arrAt_eq_of_cover 2 (G4 V c) (fun t _ => flushed4 V c t) (cover4)

/-- The same with the two operand arrays named. -/
theorem arr4_of (c : Dev nD) (X : FVec Ideal Cert.ReferenceIdeal.S100000x64 .f32) (W : FVec Ideal Cert.ReferenceIdeal.S64x64 .f32)
    (hX : V c main_v63 = X) (hW : V c main_arg6 = W) :
    (dat4 V c).arrAt 2 cfg4.N
      = Host.dotGeneral (F := Ideal) (φ₁ := .f32) (φ₂ := .f32) Cert.ReferenceIdeal.dot_S100000x64_S64x64_S100000x64_1_0_0_1_n_n none X W := by
  rw [arr4]; subst hX hW; rfl

end Cert.KernelIdeal.RegionsMM

end
-- ==== Proof.RegionsBias.lean ====
/-
  The three bias regions, each read as one whole-array function.

  Each of these regions runs over ten grid points; point t takes rows 10000·t … 10000·t + 9999 of an [100000, 64] array and
  the whole one-row bias [1, 64], adds the bias row to every row of the block (the last region stops there, the first two
  then take the maximum with zero) and writes the block back as rows 10000·t … of the output array. Entry (p, q) of the block
  is A[10000·t + p, q] + b[0, q] (rectified), which is entry (10000·t + p, q) of the host's sum of A with the bias row
  broadcast over all rows (rectified against a broadcast zero); the ten blocks tile the output array.
-/
import proofs.«176149_j30477087933020_1_alg».proof.Proof.Gen.KernelIdeal.Frame
import proofs.«176149_j30477087933020_1_alg».proof.Proof.Gen.ReferenceIdeal
import proofs.«176149_j30477087933020_1_alg».proof.Proof.Blocks
import Idealize.ShloMosaic.Lib.Pipeline.Value

set_option maxRecDepth 16384

noncomputable section

namespace Cert.KernelIdeal.RegionsBias

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

theorem hz : (![0, 0] : Fin 2 → Nat) = fun _ => 0 := funext fun a => by fin_cases a <;> rfl

/-! ## Region 1: a block of 10000 rows of `main_v45` plus the bias row `main_v46`, rectified -/

/-- The block's entry (p, q) is the host's whole-array entry (r, q) when entry (p, q) of the block is entry (r, q) of the
    array and the bias rows agree at q. -/
theorem pay1_at (x0 : FVec Ideal S10000x64 .f32) (x1 : FVec Ideal S1x64 .f32)
    (A : FVec Ideal Cert.ReferenceIdeal.S100000x64 .f32) (B : FVec Ideal Cert.ReferenceIdeal.S1x64 .f32)
    (p : Fin 10000) (q : Fin 64) (r : Fin 100000)
    (hx : x0 (ix2 p q) = A (ix2 r q)) (hb : x1 (ix2 (0 : Fin 1) q) = B (ix2 (0 : Fin 1) q)) :
    k1_pay1 x0 x1 (ix2 p q)
      = (maximumf (addf A (broadcastInDim Cert.ReferenceIdeal.S100000x64 ![0, 1] Cert.ReferenceIdeal.Gen.bcast_S1x64_S100000x64_0_1 B)) (broadcastInDim Cert.ReferenceIdeal.S100000x64 ![] Cert.ReferenceIdeal.Gen.bcast_S_S100000x64 (constant (F := Ideal) Cert.ReferenceIdeal.S_ .f32 0x00000000#32))) (ix2 r q) := by
  show maximumf (F := Ideal) (addf (shapeCast S10000x64 x0 shapeCasts_S10000x64_S10000x64) (broadcastTo S10000x64 (shapeCast S1x64 x1 shapeCasts_S1x64_S1x64) broadcasts_S1x64_S10000x64)) (broadcast S10000x64 (Scalar.ofBits (F := Ideal) .f32 0x00000000#32)) (ix2 p q) = _
  rw [shapeCast_self, shapeCast_self]
  exact Cert.Blocks.biasRelu_rows broadcasts_S1x64_S10000x64 Cert.ReferenceIdeal.Gen.bcast_S1x64_S100000x64_0_1 Cert.ReferenceIdeal.Gen.bcast_S_S100000x64 A B x0 x1 p q r hx hb

/-- What the region's output array ends holding: the host's sum of the array with the bias row broadcast over all rows, rectified,
    of the two operand arrays as the region finds them. -/
abbrev G1 (c : Dev nD) : Cert.ReferenceIdeal.S100000x64.Idx → Ideal .f32 :=
  maximumf (addf (V c main_v45 : FVec Ideal Cert.ReferenceIdeal.S100000x64 .f32) (broadcastInDim Cert.ReferenceIdeal.S100000x64 ![0, 1] Cert.ReferenceIdeal.Gen.bcast_S1x64_S100000x64_0_1 (V c main_v46 : FVec Ideal Cert.ReferenceIdeal.S1x64 .f32))) (broadcastInDim Cert.ReferenceIdeal.S100000x64 ![] Cert.ReferenceIdeal.Gen.bcast_S_S100000x64 (constant (F := Ideal) Cert.ReferenceIdeal.S_ .f32 0x00000000#32))

/-- The printed index maps over the grid: point t works on the t-th block of rows, against the whole bias row. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Every block of rows is some point's. -/
theorem onto1 : ∀ q0 : Fin 10, ∃ t : Fin cfg1.N, win1_2.index t = ![q0.val, 0] :=
  (by decide +kernel : ∀ q0 : Fin 10, ∃ t : Fin grid1.N, win1_2.index t = ![q0.val, 0])

/-- What point t writes back is block t of the whole-array function. -/
theorem flushed1 (c : Dev nD) (t : Fin cfg1.N) :
    (dat1 V c).flushed 2 t = ((cfg1.win 2).blk t).view.read (Elt Ideal) (G1 V c) := by
  show (cfg1.win 2).cut (grid1.coords t) ((dat1 V c).after 2 t) = _
  rw [after1_2]
  unfold out1_2
  rw [View.canon_unit_zero hz]
  simp only [View.ld_unit_zero (S := S10000x64) hz, View.ld_unit_zero (S := S1x64) hz]
  obtain ⟨e00, e01, e10, e11, e20, e21⟩ := idx1 t
  have hN : t.val < 10 := Nat.lt_of_lt_of_eq t.isLt N_1
  funext y
  obtain ⟨p, q, rfl⟩ : ∃ (p : Fin 10000) (q : Fin 64), y = ix2 p q := ⟨y 0, y 1, eq_ix2 y⟩
  rw [View.read_apply]
  have hr : t.val * 10000 + p.val < 100000 := by have := p.isLt; omega
  refine (pay1_at (iblk1 V c 0 t) (iblk1 V c 1 t) (V c main_v45) (V c main_v46) p q ⟨t.val * 10000 + p.val, hr⟩ ?_ ?_).trans ?_
  · show V c main_v45 (((cfg1.win 0).blk t).view.emb (ix2 p q)) = V c main_v45 (ix2 ⟨t.val * 10000 + p.val, hr⟩ q)
    refine congrArg (V c main_v45) ?_
    funext a; apply Fin.ext
    match a with
    | ⟨0, _⟩ => show win1_0.index t (0 : Fin 2) * 10000 + 1 * p.val = t.val * 10000 + p.val; rw [e00]; omega
    | ⟨1, _⟩ => show win1_0.index t (1 : Fin 2) * 64 + 1 * q.val = q.val; rw [e01]; omega
  · show V c main_v46 (((cfg1.win 1).blk t).view.emb (ix2 (0 : Fin 1) q)) = V c main_v46 (ix2 (0 : Fin 1) q)
    refine congrArg (V c main_v46) ?_
    funext a; apply Fin.ext
    match a with
    | ⟨0, _⟩ => show win1_1.index t (0 : Fin 2) * 1 + 1 * 0 = 0; rw [e10]
    | ⟨1, _⟩ => show win1_1.index t (1 : Fin 2) * 64 + 1 * q.val = q.val; rw [e11]; omega
  · show G1 V c (ix2 ⟨t.val * 10000 + p.val, hr⟩ q) = G1 V c (((cfg1.win 2).blk t).view.emb (ix2 p q))
    refine congrArg (G1 V c) ?_
    funext a; apply Fin.ext
    match a with
    | ⟨0, _⟩ => show t.val * 10000 + p.val = win1_2.index t (0 : Fin 2) * 10000 + 1 * p.val; rw [e20]; omega
    | ⟨1, _⟩ => show q.val = win1_2.index t (1 : Fin 2) * 64 + 1 * q.val; rw [e21]; omega

/-- An index of the output array is in point t's block iff each coordinate is in the block's range on its axis. -/
theorem mem_blk1 (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v47).slice (win1_2.rect t)).set ↔ _
  rw [View.set_slice_whole, Rect.mem_set_unit]
  exact Iff.rfl

/-- The ten blocks of rows cover the array: row r is in the block of point r / 10000. -/
theorem cover1 (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  obtain ⟨t, ht⟩ := onto1 ⟨(i 0).val / 10000, by omega⟩
  have q0 : win1_2.index t (0 : Fin 2) = (i 0).val / 10000 := congrFun ht 0
  have q1 : win1_2.index t (1 : Fin 2) = 0 := congrFun ht 1
  refine ⟨t, flush1_2 t, ?_⟩
  rw [mem_blk1]
  intro a
  match a with
  | ⟨0, _⟩ => show win1_2.index t (0 : Fin 2) * 10000 ≤ (i 0).val ∧ (i 0).val < win1_2.index t (0 : Fin 2) * 10000 + 10000; omega
  | ⟨1, _⟩ => show win1_2.index t (1 : Fin 2) * 64 ≤ (i 1).val ∧ (i 1).val < win1_2.index t (1 : Fin 2) * 64 + 64; omega

/-- THE OUTPUT ARRAY after the region: the host's whole-array function of the two operand arrays as the region finds them. -/
theorem arr1 (c : Dev nD) : (dat1 V c).arrAt 2 cfg1.N = G1 V c :=
  (dat1 V c).arrAt_eq_of_cover 2 (G1 V c) (fun t _ => flushed1 V c t) (cover1)

/-- The same with the two operand arrays named. -/
theorem arr1_of (c : Dev nD) (A : FVec Ideal Cert.ReferenceIdeal.S100000x64 .f32) (B : FVec Ideal Cert.ReferenceIdeal.S1x64 .f32)
    (hA : V c main_v45 = A) (hB : V c main_v46 = B) :
    (dat1 V c).arrAt 2 cfg1.N = maximumf (addf A (broadcastInDim Cert.ReferenceIdeal.S100000x64 ![0, 1] Cert.ReferenceIdeal.Gen.bcast_S1x64_S100000x64_0_1 B)) (broadcastInDim Cert.ReferenceIdeal.S100000x64 ![] Cert.ReferenceIdeal.Gen.bcast_S_S100000x64 (constant (F := Ideal) Cert.ReferenceIdeal.S_ .f32 0x00000000#32)) := by
  rw [arr1]; subst hA hB; rfl

/-! ## Region 3: a block of 10000 rows of `main_v61` plus the bias row `main_v62`, rectified -/

/-- The block's entry (p, q) is the host's whole-array entry (r, q) when entry (p, q) of the block is entry (r, q) of the
    array and the bias rows agree at q. -/
theorem pay3_at (x0 : FVec Ideal S10000x64 .f32) (x1 : FVec Ideal S1x64 .f32)
    (A : FVec Ideal Cert.ReferenceIdeal.S100000x64 .f32) (B : FVec Ideal Cert.ReferenceIdeal.S1x64 .f32)
    (p : Fin 10000) (q : Fin 64) (r : Fin 100000)
    (hx : x0 (ix2 p q) = A (ix2 r q)) (hb : x1 (ix2 (0 : Fin 1) q) = B (ix2 (0 : Fin 1) q)) :
    k3_pay1 x0 x1 (ix2 p q)
      = (maximumf (addf A (broadcastInDim Cert.ReferenceIdeal.S100000x64 ![0, 1] Cert.ReferenceIdeal.Gen.bcast_S1x64_S100000x64_0_1 B)) (broadcastInDim Cert.ReferenceIdeal.S100000x64 ![] Cert.ReferenceIdeal.Gen.bcast_S_S100000x64 (constant (F := Ideal) Cert.ReferenceIdeal.S_ .f32 0x00000000#32))) (ix2 r q) := by
  show maximumf (F := Ideal) (addf (shapeCast S10000x64 x0 shapeCasts_S10000x64_S10000x64) (broadcastTo S10000x64 (shapeCast S1x64 x1 shapeCasts_S1x64_S1x64) broadcasts_S1x64_S10000x64)) (broadcast S10000x64 (Scalar.ofBits (F := Ideal) .f32 0x00000000#32)) (ix2 p q) = _
  rw [shapeCast_self, shapeCast_self]
  exact Cert.Blocks.biasRelu_rows broadcasts_S1x64_S10000x64 Cert.ReferenceIdeal.Gen.bcast_S1x64_S100000x64_0_1 Cert.ReferenceIdeal.Gen.bcast_S_S100000x64 A B x0 x1 p q r hx hb

/-- What the region's output array ends holding: the host's sum of the array with the bias row broadcast over all rows, rectified,
    of the two operand arrays as the region finds them. -/
abbrev G3 (c : Dev nD) : Cert.ReferenceIdeal.S100000x64.Idx → Ideal .f32 :=
  maximumf (addf (V c main_v61 : FVec Ideal Cert.ReferenceIdeal.S100000x64 .f32) (broadcastInDim Cert.ReferenceIdeal.S100000x64 ![0, 1] Cert.ReferenceIdeal.Gen.bcast_S1x64_S100000x64_0_1 (V c main_v62 : FVec Ideal Cert.ReferenceIdeal.S1x64 .f32))) (broadcastInDim Cert.ReferenceIdeal.S100000x64 ![] Cert.ReferenceIdeal.Gen.bcast_S_S100000x64 (constant (F := Ideal) Cert.ReferenceIdeal.S_ .f32 0x00000000#32))

/-- The printed index maps over the grid: point t works on the t-th block of rows, against the whole bias row. -/
theorem idx3 : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- Every block of rows is some point's. -/
theorem onto3 : ∀ q0 : Fin 10, ∃ t : Fin cfg3.N, win3_2.index t = ![q0.val, 0] :=
  (by decide +kernel : ∀ q0 : Fin 10, ∃ t : Fin grid3.N, win3_2.index t = ![q0.val, 0])

/-- What point t writes back is block t of the whole-array function. -/
theorem flushed3 (c : Dev nD) (t : Fin cfg3.N) :
    (dat3 V c).flushed 2 t = ((cfg3.win 2).blk t).view.read (Elt Ideal) (G3 V c) := by
  show (cfg3.win 2).cut (grid3.coords t) ((dat3 V c).after 2 t) = _
  rw [after3_2]
  unfold out3_2
  rw [View.canon_unit_zero hz]
  simp only [View.ld_unit_zero (S := S10000x64) hz, View.ld_unit_zero (S := S1x64) hz]
  obtain ⟨e00, e01, e10, e11, e20, e21⟩ := idx3 t
  have hN : t.val < 10 := Nat.lt_of_lt_of_eq t.isLt N_3
  funext y
  obtain ⟨p, q, rfl⟩ : ∃ (p : Fin 10000) (q : Fin 64), y = ix2 p q := ⟨y 0, y 1, eq_ix2 y⟩
  rw [View.read_apply]
  have hr : t.val * 10000 + p.val < 100000 := by have := p.isLt; omega
  refine (pay3_at (iblk3 V c 0 t) (iblk3 V c 1 t) (V c main_v61) (V c main_v62) p q ⟨t.val * 10000 + p.val, hr⟩ ?_ ?_).trans ?_
  · show V c main_v61 (((cfg3.win 0).blk t).view.emb (ix2 p q)) = V c main_v61 (ix2 ⟨t.val * 10000 + p.val, hr⟩ q)
    refine congrArg (V c main_v61) ?_
    funext a; apply Fin.ext
    match a with
    | ⟨0, _⟩ => show win3_0.index t (0 : Fin 2) * 10000 + 1 * p.val = t.val * 10000 + p.val; rw [e00]; omega
    | ⟨1, _⟩ => show win3_0.index t (1 : Fin 2) * 64 + 1 * q.val = q.val; rw [e01]; omega
  · show V c main_v62 (((cfg3.win 1).blk t).view.emb (ix2 (0 : Fin 1) q)) = V c main_v62 (ix2 (0 : Fin 1) q)
    refine congrArg (V c main_v62) ?_
    funext a; apply Fin.ext
    match a with
    | ⟨0, _⟩ => show win3_1.index t (0 : Fin 2) * 1 + 1 * 0 = 0; rw [e10]
    | ⟨1, _⟩ => show win3_1.index t (1 : Fin 2) * 64 + 1 * q.val = q.val; rw [e11]; omega
  · show G3 V c (ix2 ⟨t.val * 10000 + p.val, hr⟩ q) = G3 V c (((cfg3.win 2).blk t).view.emb (ix2 p q))
    refine congrArg (G3 V c) ?_
    funext a; apply Fin.ext
    match a with
    | ⟨0, _⟩ => show t.val * 10000 + p.val = win3_2.index t (0 : Fin 2) * 10000 + 1 * p.val; rw [e20]; omega
    | ⟨1, _⟩ => show q.val = win3_2.index t (1 : Fin 2) * 64 + 1 * q.val; rw [e21]; omega

/-- An index of the output array is in point t's block iff each coordinate is in the block's range on its axis. -/
theorem mem_blk3 (t : Fin cfg3.N) (i : S100000x64.Idx) :
    i ∈ ((cfg3.win 2).blk t).view.set ↔ ∀ a : Fin 2, win3_2.index t a * S10000x64.size a ≤ (i a).val ∧ (i a).val < win3_2.index t a * S10000x64.size a + S10000x64.size a := by
  show i ∈ ((View.whole main_v63).slice (win3_2.rect t)).set ↔ _
  rw [View.set_slice_whole, Rect.mem_set_unit]
  exact Iff.rfl

/-- The ten blocks of rows cover the array: row r is in the block of point r / 10000. -/
theorem cover3 (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  obtain ⟨t, ht⟩ := onto3 ⟨(i 0).val / 10000, by omega⟩
  have q0 : win3_2.index t (0 : Fin 2) = (i 0).val / 10000 := congrFun ht 0
  have q1 : win3_2.index t (1 : Fin 2) = 0 := congrFun ht 1
  refine ⟨t, flush3_2 t, ?_⟩
  rw [mem_blk3]
  intro a
  match a with
  | ⟨0, _⟩ => show win3_2.index t (0 : Fin 2) * 10000 ≤ (i 0).val ∧ (i 0).val < win3_2.index t (0 : Fin 2) * 10000 + 10000; omega
  | ⟨1, _⟩ => show win3_2.index t (1 : Fin 2) * 64 ≤ (i 1).val ∧ (i 1).val < win3_2.index t (1 : Fin 2) * 64 + 64; omega

/-- THE OUTPUT ARRAY after the region: the host's whole-array function of the two operand arrays as the region finds them. -/
theorem arr3 (c : Dev nD) : (dat3 V c).arrAt 2 cfg3.N = G3 V c :=
  (dat3 V c).arrAt_eq_of_cover 2 (G3 V c) (fun t _ => flushed3 V c t) (cover3)

/-- The same with the two operand arrays named. -/
theorem arr3_of (c : Dev nD) (A : FVec Ideal Cert.ReferenceIdeal.S100000x64 .f32) (B : FVec Ideal Cert.ReferenceIdeal.S1x64 .f32)
    (hA : V c main_v61 = A) (hB : V c main_v62 = B) :
    (dat3 V c).arrAt 2 cfg3.N = maximumf (addf A (broadcastInDim Cert.ReferenceIdeal.S100000x64 ![0, 1] Cert.ReferenceIdeal.Gen.bcast_S1x64_S100000x64_0_1 B)) (broadcastInDim Cert.ReferenceIdeal.S100000x64 ![] Cert.ReferenceIdeal.Gen.bcast_S_S100000x64 (constant (F := Ideal) Cert.ReferenceIdeal.S_ .f32 0x00000000#32)) := by
  rw [arr3]; subst hA hB; rfl

/-! ## Region 5: a block of 10000 rows of `main_v77` plus the bias row `main_v78` -/

/-- The block's entry (p, q) is the host's whole-array entry (r, q) when entry (p, q) of the block is entry (r, q) of the
    array and the bias rows agree at q. -/
theorem pay5_at (x0 : FVec Ideal S10000x64 .f32) (x1 : FVec Ideal S1x64 .f32)
    (A : FVec Ideal Cert.ReferenceIdeal.S100000x64 .f32) (B : FVec Ideal Cert.ReferenceIdeal.S1x64 .f32)
    (p : Fin 10000) (q : Fin 64) (r : Fin 100000)
    (hx : x0 (ix2 p q) = A (ix2 r q)) (hb : x1 (ix2 (0 : Fin 1) q) = B (ix2 (0 : Fin 1) q)) :
    k5_pay1 x0 x1 (ix2 p q)
      = (addf A (broadcastInDim Cert.ReferenceIdeal.S100000x64 ![0, 1] Cert.ReferenceIdeal.Gen.bcast_S1x64_S100000x64_0_1 B)) (ix2 r q) := by
  show addf (F := Ideal) (shapeCast S10000x64 x0 shapeCasts_S10000x64_S10000x64) (broadcastTo S10000x64 (shapeCast S1x64 x1 shapeCasts_S1x64_S1x64) broadcasts_S1x64_S10000x64) (ix2 p q) = _
  rw [shapeCast_self, shapeCast_self]
  exact Cert.Blocks.bias_rows broadcasts_S1x64_S10000x64 Cert.ReferenceIdeal.Gen.bcast_S1x64_S100000x64_0_1 A B x0 x1 p q r hx hb

/-- What the region's output array ends holding: the host's sum of the array with the bias row broadcast over all rows,
    of the two operand arrays as the region finds them. -/
abbrev G5 (c : Dev nD) : Cert.ReferenceIdeal.S100000x64.Idx → Ideal .f32 :=
  addf (V c main_v77 : FVec Ideal Cert.ReferenceIdeal.S100000x64 .f32) (broadcastInDim Cert.ReferenceIdeal.S100000x64 ![0, 1] Cert.ReferenceIdeal.Gen.bcast_S1x64_S100000x64_0_1 (V c main_v78 : FVec Ideal Cert.ReferenceIdeal.S1x64 .f32))

/-- The printed index maps over the grid: point t works on the t-th block of rows, against the whole bias row. -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- Every block of rows is some point's. -/
theorem onto5 : ∀ q0 : Fin 10, ∃ t : Fin cfg5.N, win5_2.index t = ![q0.val, 0] :=
  (by decide +kernel : ∀ q0 : Fin 10, ∃ t : Fin grid5.N, win5_2.index t = ![q0.val, 0])

/-- What point t writes back is block t of the whole-array function. -/
theorem flushed5 (c : Dev nD) (t : Fin cfg5.N) :
    (dat5 V c).flushed 2 t = ((cfg5.win 2).blk t).view.read (Elt Ideal) (G5 V c) := by
  show (cfg5.win 2).cut (grid5.coords t) ((dat5 V c).after 2 t) = _
  rw [after5_2]
  unfold out5_2
  rw [View.canon_unit_zero hz]
  simp only [View.ld_unit_zero (S := S10000x64) hz, View.ld_unit_zero (S := S1x64) hz]
  obtain ⟨e00, e01, e10, e11, e20, e21⟩ := idx5 t
  have hN : t.val < 10 := Nat.lt_of_lt_of_eq t.isLt N_5
  funext y
  obtain ⟨p, q, rfl⟩ : ∃ (p : Fin 10000) (q : Fin 64), y = ix2 p q := ⟨y 0, y 1, eq_ix2 y⟩
  rw [View.read_apply]
  have hr : t.val * 10000 + p.val < 100000 := by have := p.isLt; omega
  refine (pay5_at (iblk5 V c 0 t) (iblk5 V c 1 t) (V c main_v77) (V c main_v78) p q ⟨t.val * 10000 + p.val, hr⟩ ?_ ?_).trans ?_
  · show V c main_v77 (((cfg5.win 0).blk t).view.emb (ix2 p q)) = V c main_v77 (ix2 ⟨t.val * 10000 + p.val, hr⟩ q)
    refine congrArg (V c main_v77) ?_
    funext a; apply Fin.ext
    match a with
    | ⟨0, _⟩ => show win5_0.index t (0 : Fin 2) * 10000 + 1 * p.val = t.val * 10000 + p.val; rw [e00]; omega
    | ⟨1, _⟩ => show win5_0.index t (1 : Fin 2) * 64 + 1 * q.val = q.val; rw [e01]; omega
  · show V c main_v78 (((cfg5.win 1).blk t).view.emb (ix2 (0 : Fin 1) q)) = V c main_v78 (ix2 (0 : Fin 1) q)
    refine congrArg (V c main_v78) ?_
    funext a; apply Fin.ext
    match a with
    | ⟨0, _⟩ => show win5_1.index t (0 : Fin 2) * 1 + 1 * 0 = 0; rw [e10]
    | ⟨1, _⟩ => show win5_1.index t (1 : Fin 2) * 64 + 1 * q.val = q.val; rw [e11]; omega
  · show G5 V c (ix2 ⟨t.val * 10000 + p.val, hr⟩ q) = G5 V c (((cfg5.win 2).blk t).view.emb (ix2 p q))
    refine congrArg (G5 V c) ?_
    funext a; apply Fin.ext
    match a with
    | ⟨0, _⟩ => show t.val * 10000 + p.val = win5_2.index t (0 : Fin 2) * 10000 + 1 * p.val; rw [e20]; omega
    | ⟨1, _⟩ => show q.val = win5_2.index t (1 : Fin 2) * 64 + 1 * q.val; rw [e21]; omega

/-- An index of the output array is in point t's block iff each coordinate is in the block's range on its axis. -/
theorem mem_blk5 (t : Fin cfg5.N) (i : S100000x64.Idx) :
    i ∈ ((cfg5.win 2).blk t).view.set ↔ ∀ a : Fin 2, win5_2.index t a * S10000x64.size a ≤ (i a).val ∧ (i a).val < win5_2.index t a * S10000x64.size a + S10000x64.size a := by
  show i ∈ ((View.whole main_v79).slice (win5_2.rect t)).set ↔ _
  rw [View.set_slice_whole, Rect.mem_set_unit]
  exact Iff.rfl

/-- The ten blocks of rows cover the array: row r is in the block of point r / 10000. -/
theorem cover5 (i : S100000x64.Idx) :
    ∃ t : Fin cfg5.N, (cfg5.win 2).flush t = true ∧ i ∈ ((cfg5.win 2).blk t).view.set := by
  have hi0 : (i 0).val < 100000 := (i 0).isLt
  have hi1 : (i 1).val < 64 := (i 1).isLt
  obtain ⟨t, ht⟩ := onto5 ⟨(i 0).val / 10000, by omega⟩
  have q0 : win5_2.index t (0 : Fin 2) = (i 0).val / 10000 := congrFun ht 0
  have q1 : win5_2.index t (1 : Fin 2) = 0 := congrFun ht 1
  refine ⟨t, flush5_2 t, ?_⟩
  rw [mem_blk5]
  intro a
  match a with
  | ⟨0, _⟩ => show win5_2.index t (0 : Fin 2) * 10000 ≤ (i 0).val ∧ (i 0).val < win5_2.index t (0 : Fin 2) * 10000 + 10000; omega
  | ⟨1, _⟩ => show win5_2.index t (1 : Fin 2) * 64 ≤ (i 1).val ∧ (i 1).val < win5_2.index t (1 : Fin 2) * 64 + 64; omega

/-- THE OUTPUT ARRAY after the region: the host's whole-array function of the two operand arrays as the region finds them. -/
theorem arr5 (c : Dev nD) : (dat5 V c).arrAt 2 cfg5.N = G5 V c :=
  (dat5 V c).arrAt_eq_of_cover 2 (G5 V c) (fun t _ => flushed5 V c t) (cover5)

/-- The same with the two operand arrays named. -/
theorem arr5_of (c : Dev nD) (A : FVec Ideal Cert.ReferenceIdeal.S100000x64 .f32) (B : FVec Ideal Cert.ReferenceIdeal.S1x64 .f32)
    (hA : V c main_v77 = A) (hB : V c main_v78 = B) :
    (dat5 V c).arrAt 2 cfg5.N = addf A (broadcastInDim Cert.ReferenceIdeal.S100000x64 ![0, 1] Cert.ReferenceIdeal.Gen.bcast_S1x64_S100000x64_0_1 B) := by
  rw [arr5]; subst hA hB; rfl

end Cert.KernelIdeal.RegionsBias

end
-- ==== Proof.Stretches.lean ====
/-
  The stretches of host operations between the pipelined regions, each evaluated from arbitrary buffer contents.

  The program's host operations are the reference's own, in the same order: the self-loops appended to the edge list, the
  degree of each node as a scatter-add of ones, its reciprocal square root where positive, one weight per edge (the
  product of the two endpoints' factors), and per layer the gather of the transformed rows at the edges' sources, their
  scaling by the edge weights and the scatter-add at the edges' targets. Each lemma says: run from any contents `Wv`, a
  stretch leaves in a buffer the reference's stage of the same name, provided the buffers the stretch reads hold the
  reference's stages; and a buffer no operation of the stretch writes keeps its contents. The equations are closed by
  unfolding the reference's stage definitions: the two programs spell these operations identically.
-/
import proofs.«176149_j30477087933020_1_alg».proof.Proof.Gen.KernelIdeal.Launch
import proofs.«176149_j30477087933020_1_alg».proof.Proof.RefRead
import proofs.«176149_j30477087933020_1_alg».proof.Proof.LibAfterSplit
import proofs.«176149_j30477087933020_1_alg».proof.Proof.LibMlpAt

set_option maxRecDepth 16384

noncomputable section

namespace Cert.KernelIdeal.Stretches

open Idealize.ShloMosaic Idealize.ShloMosaic.TcCoe Idealize.SL.Sem Idealize.ShloMosaic.StableHlo
open Cert.KernelIdeal Cert.KernelIdeal.Gen
open Cert.ReferenceIdeal.Read

/-- A value carried to a typed reference's own buffer type and back is the value: both transports go along the one
    equation between the two types. -/
theorem ofBuf_toBuf {sig : RefSig} {T : BufTy} {Val : EltTy → Type} (x : TRef sig T) (v : T.Contents Val) :
    x.ofBuf (x.toBuf v) = v := by
  obtain ⟨r, h, a, b⟩ := x; subst h; rfl

variable (Wv : Valuation τ sig (Elt Ideal))

/-! ## Buffers a stretch does not write -/

theorem keep_h0_arg0 : after hostOps0 Wv (Proc.devRef .tc main_arg0) = Wv (Proc.devRef .tc main_arg0) := by after_results_simp
theorem keep_h0_arg2 : after hostOps0 Wv (Proc.devRef .tc main_arg2) = Wv (Proc.devRef .tc main_arg2) := by after_results_simp
theorem keep_h0_arg3 : after hostOps0 Wv (Proc.devRef .tc main_arg3) = Wv (Proc.devRef .tc main_arg3) := by after_results_simp
theorem keep_h0_arg4 : after hostOps0 Wv (Proc.devRef .tc main_arg4) = Wv (Proc.devRef .tc main_arg4) := by after_results_simp
theorem keep_h0_arg5 : after hostOps0 Wv (Proc.devRef .tc main_arg5) = Wv (Proc.devRef .tc main_arg5) := by after_results_simp
theorem keep_h0_arg6 : after hostOps0 Wv (Proc.devRef .tc main_arg6) = Wv (Proc.devRef .tc main_arg6) := by after_results_simp
theorem keep_h0_arg7 : after hostOps0 Wv (Proc.devRef .tc main_arg7) = Wv (Proc.devRef .tc main_arg7) := by after_results_simp
theorem keep_h0a_v3 : after hostOps0_1 Wv (Proc.devRef .tc main_v3) = Wv (Proc.devRef .tc main_v3) := by after_results_simp
theorem keep_h0a_v6 : after hostOps0_1 Wv (Proc.devRef .tc main_v6) = Wv (Proc.devRef .tc main_v6) := by after_results_simp
theorem keep_h0a_arg0 : after hostOps0_1 Wv (Proc.devRef .tc main_arg0) = Wv (Proc.devRef .tc main_arg0) := by after_results_simp
theorem keep_h0a_arg2 : after hostOps0_1 Wv (Proc.devRef .tc main_arg2) = Wv (Proc.devRef .tc main_arg2) := by after_results_simp
theorem keep_h0a_arg3 : after hostOps0_1 Wv (Proc.devRef .tc main_arg3) = Wv (Proc.devRef .tc main_arg3) := by after_results_simp
theorem keep_h0a_arg4 : after hostOps0_1 Wv (Proc.devRef .tc main_arg4) = Wv (Proc.devRef .tc main_arg4) := by after_results_simp
theorem keep_h0a_arg5 : after hostOps0_1 Wv (Proc.devRef .tc main_arg5) = Wv (Proc.devRef .tc main_arg5) := by after_results_simp
theorem keep_h0a_arg6 : after hostOps0_1 Wv (Proc.devRef .tc main_arg6) = Wv (Proc.devRef .tc main_arg6) := by after_results_simp
theorem keep_h0a_arg7 : after hostOps0_1 Wv (Proc.devRef .tc main_arg7) = Wv (Proc.devRef .tc main_arg7) := by after_results_simp
theorem keep_h0b_v3 : after hostOps0_2 Wv (Proc.devRef .tc main_v3) = Wv (Proc.devRef .tc main_v3) := by after_results_simp
theorem keep_h0b_v6 : after hostOps0_2 Wv (Proc.devRef .tc main_v6) = Wv (Proc.devRef .tc main_v6) := by after_results_simp
theorem keep_h0b_arg0 : after hostOps0_2 Wv (Proc.devRef .tc main_arg0) = Wv (Proc.devRef .tc main_arg0) := by after_results_simp
theorem keep_h0b_arg2 : after hostOps0_2 Wv (Proc.devRef .tc main_arg2) = Wv (Proc.devRef .tc main_arg2) := by after_results_simp
theorem keep_h0b_arg3 : after hostOps0_2 Wv (Proc.devRef .tc main_arg3) = Wv (Proc.devRef .tc main_arg3) := by after_results_simp
theorem keep_h0b_arg4 : after hostOps0_2 Wv (Proc.devRef .tc main_arg4) = Wv (Proc.devRef .tc main_arg4) := by after_results_simp
theorem keep_h0b_arg5 : after hostOps0_2 Wv (Proc.devRef .tc main_arg5) = Wv (Proc.devRef .tc main_arg5) := by after_results_simp
theorem keep_h0b_arg6 : after hostOps0_2 Wv (Proc.devRef .tc main_arg6) = Wv (Proc.devRef .tc main_arg6) := by after_results_simp
theorem keep_h0b_arg7 : after hostOps0_2 Wv (Proc.devRef .tc main_arg7) = Wv (Proc.devRef .tc main_arg7) := by after_results_simp
theorem keep_h1_v3 : after hostOps1 Wv (Proc.devRef .tc main_v3) = Wv (Proc.devRef .tc main_v3) := by after_results_simp
theorem keep_h1_v6 : after hostOps1 Wv (Proc.devRef .tc main_v6) = Wv (Proc.devRef .tc main_v6) := by after_results_simp
theorem keep_h1_v31 : after hostOps1 Wv (Proc.devRef .tc main_v31) = Wv (Proc.devRef .tc main_v31) := by after_results_simp
theorem keep_h1_arg4 : after hostOps1 Wv (Proc.devRef .tc main_arg4) = Wv (Proc.devRef .tc main_arg4) := by after_results_simp
theorem keep_h1_arg5 : after hostOps1 Wv (Proc.devRef .tc main_arg5) = Wv (Proc.devRef .tc main_arg5) := by after_results_simp
theorem keep_h1_arg6 : after hostOps1 Wv (Proc.devRef .tc main_arg6) = Wv (Proc.devRef .tc main_arg6) := by after_results_simp
theorem keep_h1_arg7 : after hostOps1 Wv (Proc.devRef .tc main_arg7) = Wv (Proc.devRef .tc main_arg7) := by after_results_simp
theorem keep_h3_v3 : after hostOps3 Wv (Proc.devRef .tc main_v3) = Wv (Proc.devRef .tc main_v3) := by after_results_simp
theorem keep_h3_v6 : after hostOps3 Wv (Proc.devRef .tc main_v6) = Wv (Proc.devRef .tc main_v6) := by after_results_simp
theorem keep_h3_v31 : after hostOps3 Wv (Proc.devRef .tc main_v31) = Wv (Proc.devRef .tc main_v31) := by after_results_simp
theorem keep_h3_arg6 : after hostOps3 Wv (Proc.devRef .tc main_arg6) = Wv (Proc.devRef .tc main_arg6) := by after_results_simp
theorem keep_h3_arg7 : after hostOps3 Wv (Proc.devRef .tc main_arg7) = Wv (Proc.devRef .tc main_arg7) := by after_results_simp

/-! ## The first stretch: sources, targets, degrees -/

/-- The edges' sources with the self-loops appended. -/
theorem hostOps0_v3 : after hostOps0 Wv (Proc.devRef .tc main_v3) = val_main_v3 (F := Ideal) (Wv (Proc.devRef .tc main_arg1)) := by
  after_results_simp
  results_under_pairs
  rfl

/-- The edges' targets with the self-loops appended. -/
theorem hostOps0_v6 : after hostOps0 Wv (Proc.devRef .tc main_v6) = val_main_v6 (F := Ideal) (Wv (Proc.devRef .tc main_arg1)) := by
  after_results_simp
  results_under_pairs
  rfl

/-- Which nodes have a positive degree. -/
theorem hostOps0_v12 : after hostOps0 Wv (Proc.devRef .tc main_v12) = val_main_v12 (F := Ideal) (Wv (Proc.devRef .tc main_arg1)) := by
  after_results_simp
  results_under_pairs
  rfl

/-- The reciprocal square root of each degree, the degree first raised to at least one. -/
theorem hostOps0_v15 : after hostOps0 Wv (Proc.devRef .tc main_v15) = val_main_v15 (F := Ideal) (Wv (Proc.devRef .tc main_arg1)) := by
  after_results_simp
  results_under_pairs
  rfl

/-- The zero the selection below falls back to. -/
theorem hostOps0_cst_3 : after hostOps0 Wv (Proc.devRef .tc main_cst_3) = val_main_cst_3 (F := Ideal) := by
  after_results_simp
  rfl

/-! ## The selection: the degree factor where the degree is positive, zero elsewhere -/

theorem hostOps0_1_v16 (x1 : _) (h12 : Wv (Proc.devRef .tc main_v12) = val_main_v12 (F := Ideal) x1)
    (h15 : Wv (Proc.devRef .tc main_v15) = val_main_v15 (F := Ideal) x1)
    (hc : Wv (Proc.devRef .tc main_cst_3) = val_main_cst_3 (F := Ideal)) :
    after hostOps0_1 Wv (Proc.devRef .tc main_v16) = val_main_v16 (F := Ideal) x1 := by
  after_results_simp
  simp only [ofBuf_toBuf]
  show select (Wv (Proc.devRef .tc main_v12)) (Wv (Proc.devRef .tc main_v15))
      (broadcastInDim S100000 ![] bcast_S_S100000 (id (Wv (Proc.devRef .tc main_cst_3)))) = _
  rw [h12, h15, hc]
  rfl

/-! ## The edge weights: the product of the two endpoints' degree factors -/

theorem hostOps0_2_v31 (x1 : _) (h3 : Wv (Proc.devRef .tc main_v3) = val_main_v3 (F := Ideal) x1)
    (h6 : Wv (Proc.devRef .tc main_v6) = val_main_v6 (F := Ideal) x1)
    (h16 : Wv (Proc.devRef .tc main_v16) = val_main_v16 (F := Ideal) x1) :
    after hostOps0_2 Wv (Proc.devRef .tc main_v31) = val_main_v31 (F := Ideal) x1 := by
  after_results_simp
  rw [h3, h6, h16]
  rfl

/-! ## The three layers' aggregations -/

/-- Layer 1's host stretch: the gather of the rows of `main_v32` at the edges' sources, scaled by the edge weights, and the
    scatter-add at the edges' targets: the reference's stage of the same name when the operands are the reference's. -/
theorem hostOps1_v45 (x0 : _) (x1 : _) (x2 : _)
    (h3 : Wv (Proc.devRef .tc main_v3) = val_main_v3 (F := Ideal) x1) (h6 : Wv (Proc.devRef .tc main_v6) = val_main_v6 (F := Ideal) x1)
    (h31 : Wv (Proc.devRef .tc main_v31) = val_main_v31 (F := Ideal) x1)
    (hl : Wv (Proc.devRef .tc main_v32) = val_main_v32 (F := Ideal) x0 x2) :
    after hostOps1 Wv (Proc.devRef .tc main_v45) = val_main_v45 (F := Ideal) x0 x1 x2 := by
  after_results_simp
  rw [h3, h6, h31, hl]
  rfl

/-- The same stretch's last operation: the bias vector viewed as one row. Reading a vector as its one row and
    broadcasting it along a new leading unit axis give the same [1, 64] array. -/
theorem hostOps1_v46 (x3 : _) (hb : Wv (Proc.devRef .tc main_arg3) = x3) :
    after hostOps1 Wv (Proc.devRef .tc main_v46) = val_main_v46 (F := Ideal) x3 := by
  after_results_simp
  rw [hb]
  exact Cert.Mlp.rowCast_eq_bcast x3 _ _

/-- Layer 2's host stretch: the gather of the rows of `main_v48` at the edges' sources, scaled by the edge weights, and the
    scatter-add at the edges' targets: the reference's stage of the same name when the operands are the reference's. -/
theorem hostOps3_v61 (x0 : _) (x1 : _) (x2 : _) (x3 : _) (x4 : _)
    (h3 : Wv (Proc.devRef .tc main_v3) = val_main_v3 (F := Ideal) x1) (h6 : Wv (Proc.devRef .tc main_v6) = val_main_v6 (F := Ideal) x1)
    (h31 : Wv (Proc.devRef .tc main_v31) = val_main_v31 (F := Ideal) x1)
    (hl : Wv (Proc.devRef .tc main_v48) = val_main_v50 (F := Ideal) x0 x1 x2 x3 x4) :
    after hostOps3 Wv (Proc.devRef .tc main_v61) = val_main_v63 (F := Ideal) x0 x1 x2 x3 x4 := by
  after_results_simp
  rw [h3, h6, h31, hl]
  rfl

/-- The same stretch's last operation: the bias vector viewed as one row. Reading a vector as its one row and
    broadcasting it along a new leading unit axis give the same [1, 64] array. -/
theorem hostOps3_v62 (x5 : _) (hb : Wv (Proc.devRef .tc main_arg5) = x5) :
    after hostOps3 Wv (Proc.devRef .tc main_v62) = val_main_v64 (F := Ideal) x5 := by
  after_results_simp
  rw [hb]
  exact Cert.Mlp.rowCast_eq_bcast x5 _ _

/-- Layer 3's host stretch: the gather of the rows of `main_v64` at the edges' sources, scaled by the edge weights, and the
    scatter-add at the edges' targets: the reference's stage of the same name when the operands are the reference's. -/
theorem hostOps5_v77 (x0 : _) (x1 : _) (x2 : _) (x3 : _) (x4 : _) (x5 : _) (x6 : _)
    (h3 : Wv (Proc.devRef .tc main_v3) = val_main_v3 (F := Ideal) x1) (h6 : Wv (Proc.devRef .tc main_v6) = val_main_v6 (F := Ideal) x1)
    (h31 : Wv (Proc.devRef .tc main_v31) = val_main_v31 (F := Ideal) x1)
    (hl : Wv (Proc.devRef .tc main_v64) = val_main_v68 (F := Ideal) x0 x1 x2 x3 x4 x5 x6) :
    after hostOps5 Wv (Proc.devRef .tc main_v77) = val_main_v81 (F := Ideal) x0 x1 x2 x3 x4 x5 x6 := by
  after_results_simp
  rw [h3, h6, h31, hl]
  rfl

/-- The same stretch's last operation: the bias vector viewed as one row. Reading a vector as its one row and
    broadcasting it along a new leading unit axis give the same [1, 64] array. -/
theorem hostOps5_v78 (x7 : _) (hb : Wv (Proc.devRef .tc main_arg7) = x7) :
    after hostOps5 Wv (Proc.devRef .tc main_v78) = val_main_v82 (F := Ideal) x7 := by
  after_results_simp
  rw [hb]
  exact Cert.Mlp.rowCast_eq_bcast x7 _ _

end Cert.KernelIdeal.Stretches

end
-- ==== Proof.KValue.lean ====
/-
  The result array of the idealized kernel's run, as the reference's last stage of the arguments.

  The run's buffer contents at the twelve segment boundaries are followed from the launch memory to the return. Three
  values are computed once, before the first region, and read by every layer: the edges' sources and targets with the
  self-loops appended, and the edge weights. They and the argument arrays are not written again, so they hold the same
  contents at every later boundary. Each layer then is: the product region (the host's product of the layer's input with
  its weight matrix), the host stretch (gather at the sources, scale by the edge weights, scatter-add at the targets) and
  the bias region (add the bias row, rectify except in the last layer). Boundary by boundary the buffer just written holds
  the reference's stage of the same operation, so the last region's output array is the reference's result stage.
-/
import proofs.«176149_j30477087933020_1_alg».proof.Proof.Gen.KernelIdeal.Frame
import proofs.«176149_j30477087933020_1_alg».proof.Proof.RegionsMM
import proofs.«176149_j30477087933020_1_alg».proof.Proof.RegionsBias
import proofs.«176149_j30477087933020_1_alg».proof.Proof.Stretches

set_option maxRecDepth 16384

noncomputable section

namespace Cert.KernelIdeal.KValue

open Idealize.ShloMosaic Idealize.ShloMosaic.TcCoe Idealize.SL.Sem Idealize.ShloMosaic.StableHlo
open Cert.KernelIdeal Cert.KernelIdeal.Gen
open Cert.ReferenceIdeal.Read

variable (m : (ℓ : Loc nD τ sig) → Buf (Elt Ideal) ℓ) (ρ : Dev nD → PrngReg) (c : Dev nD)

/-! ## The argument arrays as launched, at the reference's types -/

abbrev x0 : (⟨Cert.ReferenceIdeal.S100000x64, .f32⟩ : BufTy).Contents (Elt Ideal) := m ((c.tc : Thread nD τ).loc main_arg0)
abbrev x1 : (⟨Cert.ReferenceIdeal.S2x1600000, .i32⟩ : BufTy).Contents (Elt Ideal) := m ((c.tc : Thread nD τ).loc main_arg1)
abbrev x2 : (⟨Cert.ReferenceIdeal.S64x64, .f32⟩ : BufTy).Contents (Elt Ideal) := m ((c.tc : Thread nD τ).loc main_arg2)
abbrev x3 : (⟨Cert.ReferenceIdeal.S64, .f32⟩ : BufTy).Contents (Elt Ideal) := m ((c.tc : Thread nD τ).loc main_arg3)
abbrev x4 : (⟨Cert.ReferenceIdeal.S64x64, .f32⟩ : BufTy).Contents (Elt Ideal) := m ((c.tc : Thread nD τ).loc main_arg4)
abbrev x5 : (⟨Cert.ReferenceIdeal.S64, .f32⟩ : BufTy).Contents (Elt Ideal) := m ((c.tc : Thread nD τ).loc main_arg5)
abbrev x6 : (⟨Cert.ReferenceIdeal.S64x64, .f32⟩ : BufTy).Contents (Elt Ideal) := m ((c.tc : Thread nD τ).loc main_arg6)
abbrev x7 : (⟨Cert.ReferenceIdeal.S64, .f32⟩ : BufTy).Contents (Elt Ideal) := m ((c.tc : Thread nD τ).loc main_arg7)

/-! ## The argument arrays at the boundaries where a segment reads them: never written, so as launched -/

theorem a1_0 : W1 m ρ c (Proc.devRef .tc main_arg0) = x0 m c := Stretches.keep_h0_arg0 (W0 m ρ c)
theorem a2_0 : W2 m ρ c (Proc.devRef .tc main_arg0) = x0 m c := (Stretches.keep_h0a_arg0 (W1 m ρ c)).trans (a1_0 m ρ c)
theorem a3_0 : W3 m ρ c (Proc.devRef .tc main_arg0) = x0 m c := (Stretches.keep_h0b_arg0 (W2 m ρ c)).trans (a2_0 m ρ c)
theorem a1_2 : W1 m ρ c (Proc.devRef .tc main_arg2) = x2 m c := Stretches.keep_h0_arg2 (W0 m ρ c)
theorem a2_2 : W2 m ρ c (Proc.devRef .tc main_arg2) = x2 m c := (Stretches.keep_h0a_arg2 (W1 m ρ c)).trans (a1_2 m ρ c)
theorem a3_2 : W3 m ρ c (Proc.devRef .tc main_arg2) = x2 m c := (Stretches.keep_h0b_arg2 (W2 m ρ c)).trans (a2_2 m ρ c)
theorem a1_3 : W1 m ρ c (Proc.devRef .tc main_arg3) = x3 m c := Stretches.keep_h0_arg3 (W0 m ρ c)
theorem a2_3 : W2 m ρ c (Proc.devRef .tc main_arg3) = x3 m c := (Stretches.keep_h0a_arg3 (W1 m ρ c)).trans (a1_3 m ρ c)
theorem a3_3 : W3 m ρ c (Proc.devRef .tc main_arg3) = x3 m c := (Stretches.keep_h0b_arg3 (W2 m ρ c)).trans (a2_3 m ρ c)
theorem a4_3 : W4 m ρ c (Proc.devRef .tc main_arg3) = x3 m c := (W4_of_ne m ρ c main_arg3 (by decide)).trans (a3_3 m ρ c)
theorem a1_4 : W1 m ρ c (Proc.devRef .tc main_arg4) = x4 m c := Stretches.keep_h0_arg4 (W0 m ρ c)
theorem a2_4 : W2 m ρ c (Proc.devRef .tc main_arg4) = x4 m c := (Stretches.keep_h0a_arg4 (W1 m ρ c)).trans (a1_4 m ρ c)
theorem a3_4 : W3 m ρ c (Proc.devRef .tc main_arg4) = x4 m c := (Stretches.keep_h0b_arg4 (W2 m ρ c)).trans (a2_4 m ρ c)
theorem a4_4 : W4 m ρ c (Proc.devRef .tc main_arg4) = x4 m c := (W4_of_ne m ρ c main_arg4 (by decide)).trans (a3_4 m ρ c)
theorem a5_4 : W5 m ρ c (Proc.devRef .tc main_arg4) = x4 m c := (Stretches.keep_h1_arg4 (W4 m ρ c)).trans (a4_4 m ρ c)
theorem a6_4 : W6 m ρ c (Proc.devRef .tc main_arg4) = x4 m c := (W6_of_ne m ρ c main_arg4 (by decide)).trans (a5_4 m ρ c)
theorem a1_5 : W1 m ρ c (Proc.devRef .tc main_arg5) = x5 m c := Stretches.keep_h0_arg5 (W0 m ρ c)
theorem a2_5 : W2 m ρ c (Proc.devRef .tc main_arg5) = x5 m c := (Stretches.keep_h0a_arg5 (W1 m ρ c)).trans (a1_5 m ρ c)
theorem a3_5 : W3 m ρ c (Proc.devRef .tc main_arg5) = x5 m c := (Stretches.keep_h0b_arg5 (W2 m ρ c)).trans (a2_5 m ρ c)
theorem a4_5 : W4 m ρ c (Proc.devRef .tc main_arg5) = x5 m c := (W4_of_ne m ρ c main_arg5 (by decide)).trans (a3_5 m ρ c)
theorem a5_5 : W5 m ρ c (Proc.devRef .tc main_arg5) = x5 m c := (Stretches.keep_h1_arg5 (W4 m ρ c)).trans (a4_5 m ρ c)
theorem a6_5 : W6 m ρ c (Proc.devRef .tc main_arg5) = x5 m c := (W6_of_ne m ρ c main_arg5 (by decide)).trans (a5_5 m ρ c)
theorem a7_5 : W7 m ρ c (Proc.devRef .tc main_arg5) = x5 m c := (W7_of_ne m ρ c main_arg5 (by decide)).trans (a6_5 m ρ c)
theorem a1_6 : W1 m ρ c (Proc.devRef .tc main_arg6) = x6 m c := Stretches.keep_h0_arg6 (W0 m ρ c)
theorem a2_6 : W2 m ρ c (Proc.devRef .tc main_arg6) = x6 m c := (Stretches.keep_h0a_arg6 (W1 m ρ c)).trans (a1_6 m ρ c)
theorem a3_6 : W3 m ρ c (Proc.devRef .tc main_arg6) = x6 m c := (Stretches.keep_h0b_arg6 (W2 m ρ c)).trans (a2_6 m ρ c)
theorem a4_6 : W4 m ρ c (Proc.devRef .tc main_arg6) = x6 m c := (W4_of_ne m ρ c main_arg6 (by decide)).trans (a3_6 m ρ c)
theorem a5_6 : W5 m ρ c (Proc.devRef .tc main_arg6) = x6 m c := (Stretches.keep_h1_arg6 (W4 m ρ c)).trans (a4_6 m ρ c)
theorem a6_6 : W6 m ρ c (Proc.devRef .tc main_arg6) = x6 m c := (W6_of_ne m ρ c main_arg6 (by decide)).trans (a5_6 m ρ c)
theorem a7_6 : W7 m ρ c (Proc.devRef .tc main_arg6) = x6 m c := (W7_of_ne m ρ c main_arg6 (by decide)).trans (a6_6 m ρ c)
theorem a8_6 : W8 m ρ c (Proc.devRef .tc main_arg6) = x6 m c := (Stretches.keep_h3_arg6 (W7 m ρ c)).trans (a7_6 m ρ c)
theorem a9_6 : W9 m ρ c (Proc.devRef .tc main_arg6) = x6 m c := (W9_of_ne m ρ c main_arg6 (by decide)).trans (a8_6 m ρ c)
theorem a1_7 : W1 m ρ c (Proc.devRef .tc main_arg7) = x7 m c := Stretches.keep_h0_arg7 (W0 m ρ c)
theorem a2_7 : W2 m ρ c (Proc.devRef .tc main_arg7) = x7 m c := (Stretches.keep_h0a_arg7 (W1 m ρ c)).trans (a1_7 m ρ c)
theorem a3_7 : W3 m ρ c (Proc.devRef .tc main_arg7) = x7 m c := (Stretches.keep_h0b_arg7 (W2 m ρ c)).trans (a2_7 m ρ c)
theorem a4_7 : W4 m ρ c (Proc.devRef .tc main_arg7) = x7 m c := (W4_of_ne m ρ c main_arg7 (by decide)).trans (a3_7 m ρ c)
theorem a5_7 : W5 m ρ c (Proc.devRef .tc main_arg7) = x7 m c := (Stretches.keep_h1_arg7 (W4 m ρ c)).trans (a4_7 m ρ c)
theorem a6_7 : W6 m ρ c (Proc.devRef .tc main_arg7) = x7 m c := (W6_of_ne m ρ c main_arg7 (by decide)).trans (a5_7 m ρ c)
theorem a7_7 : W7 m ρ c (Proc.devRef .tc main_arg7) = x7 m c := (W7_of_ne m ρ c main_arg7 (by decide)).trans (a6_7 m ρ c)
theorem a8_7 : W8 m ρ c (Proc.devRef .tc main_arg7) = x7 m c := (Stretches.keep_h3_arg7 (W7 m ρ c)).trans (a7_7 m ρ c)
theorem a9_7 : W9 m ρ c (Proc.devRef .tc main_arg7) = x7 m c := (W9_of_ne m ρ c main_arg7 (by decide)).trans (a8_7 m ρ c)
theorem a10_7 : W10 m ρ c (Proc.devRef .tc main_arg7) = x7 m c := (W10_of_ne m ρ c main_arg7 (by decide)).trans (a9_7 m ρ c)

/-! ## Before the first region: sources, targets, edge weights -/

theorem b1_v3 : W1 m ρ c (Proc.devRef .tc main_v3) = val_main_v3 (F := Ideal) (x1 m c) := Stretches.hostOps0_v3 (W0 m ρ c)
theorem b1_v6 : W1 m ρ c (Proc.devRef .tc main_v6) = val_main_v6 (F := Ideal) (x1 m c) := Stretches.hostOps0_v6 (W0 m ρ c)
theorem b1_v12 : W1 m ρ c (Proc.devRef .tc main_v12) = val_main_v12 (F := Ideal) (x1 m c) := Stretches.hostOps0_v12 (W0 m ρ c)
theorem b1_v15 : W1 m ρ c (Proc.devRef .tc main_v15) = val_main_v15 (F := Ideal) (x1 m c) := Stretches.hostOps0_v15 (W0 m ρ c)
theorem b1_cst_3 : W1 m ρ c (Proc.devRef .tc main_cst_3) = val_main_cst_3 (F := Ideal) := Stretches.hostOps0_cst_3 (W0 m ρ c)
theorem b2_v3 : W2 m ρ c (Proc.devRef .tc main_v3) = val_main_v3 (F := Ideal) (x1 m c) := (Stretches.keep_h0a_v3 (W1 m ρ c)).trans (b1_v3 m ρ c)
theorem b2_v6 : W2 m ρ c (Proc.devRef .tc main_v6) = val_main_v6 (F := Ideal) (x1 m c) := (Stretches.keep_h0a_v6 (W1 m ρ c)).trans (b1_v6 m ρ c)
theorem b2_v16 : W2 m ρ c (Proc.devRef .tc main_v16) = val_main_v16 (F := Ideal) (x1 m c) :=
  Stretches.hostOps0_1_v16 (W1 m ρ c) (x1 m c) (b1_v12 m ρ c) (b1_v15 m ρ c) (b1_cst_3 m ρ c)
theorem b3_v3 : W3 m ρ c (Proc.devRef .tc main_v3) = val_main_v3 (F := Ideal) (x1 m c) := (Stretches.keep_h0b_v3 (W2 m ρ c)).trans (b2_v3 m ρ c)
theorem b3_v6 : W3 m ρ c (Proc.devRef .tc main_v6) = val_main_v6 (F := Ideal) (x1 m c) := (Stretches.keep_h0b_v6 (W2 m ρ c)).trans (b2_v6 m ρ c)
theorem b3_v31 : W3 m ρ c (Proc.devRef .tc main_v31) = val_main_v31 (F := Ideal) (x1 m c) :=
  Stretches.hostOps0_2_v31 (W2 m ρ c) (x1 m c) (b2_v3 m ρ c) (b2_v6 m ρ c) (b2_v16 m ρ c)

/-! ## The same three at the later boundaries: no region and no later stretch writes them -/

theorem b4_v3 : W4 m ρ c (Proc.devRef .tc main_v3) = val_main_v3 (F := Ideal) (x1 m c) := (W4_of_ne m ρ c main_v3 (by decide)).trans (b3_v3 m ρ c)
theorem b5_v3 : W5 m ρ c (Proc.devRef .tc main_v3) = val_main_v3 (F := Ideal) (x1 m c) := (Stretches.keep_h1_v3 (W4 m ρ c)).trans (b4_v3 m ρ c)
theorem b6_v3 : W6 m ρ c (Proc.devRef .tc main_v3) = val_main_v3 (F := Ideal) (x1 m c) := (W6_of_ne m ρ c main_v3 (by decide)).trans (b5_v3 m ρ c)
theorem b7_v3 : W7 m ρ c (Proc.devRef .tc main_v3) = val_main_v3 (F := Ideal) (x1 m c) := (W7_of_ne m ρ c main_v3 (by decide)).trans (b6_v3 m ρ c)
theorem b8_v3 : W8 m ρ c (Proc.devRef .tc main_v3) = val_main_v3 (F := Ideal) (x1 m c) := (Stretches.keep_h3_v3 (W7 m ρ c)).trans (b7_v3 m ρ c)
theorem b9_v3 : W9 m ρ c (Proc.devRef .tc main_v3) = val_main_v3 (F := Ideal) (x1 m c) := (W9_of_ne m ρ c main_v3 (by decide)).trans (b8_v3 m ρ c)
theorem b10_v3 : W10 m ρ c (Proc.devRef .tc main_v3) = val_main_v3 (F := Ideal) (x1 m c) := (W10_of_ne m ρ c main_v3 (by decide)).trans (b9_v3 m ρ c)
theorem b4_v6 : W4 m ρ c (Proc.devRef .tc main_v6) = val_main_v6 (F := Ideal) (x1 m c) := (W4_of_ne m ρ c main_v6 (by decide)).trans (b3_v6 m ρ c)
theorem b5_v6 : W5 m ρ c (Proc.devRef .tc main_v6) = val_main_v6 (F := Ideal) (x1 m c) := (Stretches.keep_h1_v6 (W4 m ρ c)).trans (b4_v6 m ρ c)
theorem b6_v6 : W6 m ρ c (Proc.devRef .tc main_v6) = val_main_v6 (F := Ideal) (x1 m c) := (W6_of_ne m ρ c main_v6 (by decide)).trans (b5_v6 m ρ c)
theorem b7_v6 : W7 m ρ c (Proc.devRef .tc main_v6) = val_main_v6 (F := Ideal) (x1 m c) := (W7_of_ne m ρ c main_v6 (by decide)).trans (b6_v6 m ρ c)
theorem b8_v6 : W8 m ρ c (Proc.devRef .tc main_v6) = val_main_v6 (F := Ideal) (x1 m c) := (Stretches.keep_h3_v6 (W7 m ρ c)).trans (b7_v6 m ρ c)
theorem b9_v6 : W9 m ρ c (Proc.devRef .tc main_v6) = val_main_v6 (F := Ideal) (x1 m c) := (W9_of_ne m ρ c main_v6 (by decide)).trans (b8_v6 m ρ c)
theorem b10_v6 : W10 m ρ c (Proc.devRef .tc main_v6) = val_main_v6 (F := Ideal) (x1 m c) := (W10_of_ne m ρ c main_v6 (by decide)).trans (b9_v6 m ρ c)
theorem b4_v31 : W4 m ρ c (Proc.devRef .tc main_v31) = val_main_v31 (F := Ideal) (x1 m c) := (W4_of_ne m ρ c main_v31 (by decide)).trans (b3_v31 m ρ c)
theorem b5_v31 : W5 m ρ c (Proc.devRef .tc main_v31) = val_main_v31 (F := Ideal) (x1 m c) := (Stretches.keep_h1_v31 (W4 m ρ c)).trans (b4_v31 m ρ c)
theorem b6_v31 : W6 m ρ c (Proc.devRef .tc main_v31) = val_main_v31 (F := Ideal) (x1 m c) := (W6_of_ne m ρ c main_v31 (by decide)).trans (b5_v31 m ρ c)
theorem b7_v31 : W7 m ρ c (Proc.devRef .tc main_v31) = val_main_v31 (F := Ideal) (x1 m c) := (W7_of_ne m ρ c main_v31 (by decide)).trans (b6_v31 m ρ c)
theorem b8_v31 : W8 m ρ c (Proc.devRef .tc main_v31) = val_main_v31 (F := Ideal) (x1 m c) := (Stretches.keep_h3_v31 (W7 m ρ c)).trans (b7_v31 m ρ c)
theorem b9_v31 : W9 m ρ c (Proc.devRef .tc main_v31) = val_main_v31 (F := Ideal) (x1 m c) := (W9_of_ne m ρ c main_v31 (by decide)).trans (b8_v31 m ρ c)
theorem b10_v31 : W10 m ρ c (Proc.devRef .tc main_v31) = val_main_v31 (F := Ideal) (x1 m c) := (W10_of_ne m ρ c main_v31 (by decide)).trans (b9_v31 m ρ c)

/-! ## Layer 1 -/

/-- After the first product region: the input's product with the first weight matrix. -/
theorem t4 : W4 m ρ c (Proc.devRef .tc main_v32) = val_main_v32 (F := Ideal) (x0 m c) (x2 m c) :=
  (W4_arr m ρ c 2).trans (RegionsMM.arr0_of (V3 m ρ) c _ _ (a3_0 m ρ c) (a3_2 m ρ c))
/-- After the first host stretch: the aggregated messages, and the first bias as one row. -/
theorem t5 : W5 m ρ c (Proc.devRef .tc main_v45) = val_main_v45 (F := Ideal) (x0 m c) (x1 m c) (x2 m c) :=
  Stretches.hostOps1_v45 (W4 m ρ c) _ _ _ (b4_v3 m ρ c) (b4_v6 m ρ c) (b4_v31 m ρ c) (t4 m ρ c)
theorem t5b : W5 m ρ c (Proc.devRef .tc main_v46) = val_main_v46 (F := Ideal) (x3 m c) :=
  Stretches.hostOps1_v46 (W4 m ρ c) _ (a4_3 m ρ c)
/-- After the first bias region: the layer's rectified output. -/
theorem t6 : W6 m ρ c (Proc.devRef .tc main_v47) = val_main_v49 (F := Ideal) (x0 m c) (x1 m c) (x2 m c) (x3 m c) :=
  (W6_arr m ρ c 2).trans (RegionsBias.arr1_of (V5 m ρ) c _ _ (t5 m ρ c) (t5b m ρ c))

/-! ## Layer 2 -/

theorem t7 : W7 m ρ c (Proc.devRef .tc main_v48) = val_main_v50 (F := Ideal) (x0 m c) (x1 m c) (x2 m c) (x3 m c) (x4 m c) :=
  (W7_arr m ρ c 2).trans (RegionsMM.arr2_of (V6 m ρ) c _ _ (t6 m ρ c) (a6_4 m ρ c))
theorem t8 : W8 m ρ c (Proc.devRef .tc main_v61) = val_main_v63 (F := Ideal) (x0 m c) (x1 m c) (x2 m c) (x3 m c) (x4 m c) :=
  Stretches.hostOps3_v61 (W7 m ρ c) _ _ _ _ _ (b7_v3 m ρ c) (b7_v6 m ρ c) (b7_v31 m ρ c) (t7 m ρ c)
theorem t8b : W8 m ρ c (Proc.devRef .tc main_v62) = val_main_v64 (F := Ideal) (x5 m c) :=
  Stretches.hostOps3_v62 (W7 m ρ c) _ (a7_5 m ρ c)
theorem t9 : W9 m ρ c (Proc.devRef .tc main_v63) = val_main_v67 (F := Ideal) (x0 m c) (x1 m c) (x2 m c) (x3 m c) (x4 m c) (x5 m c) :=
  (W9_arr m ρ c 2).trans (RegionsBias.arr3_of (V8 m ρ) c _ _ (t8 m ρ c) (t8b m ρ c))

/-! ## Layer 3 -/

theorem t10 : W10 m ρ c (Proc.devRef .tc main_v64) = val_main_v68 (F := Ideal) (x0 m c) (x1 m c) (x2 m c) (x3 m c) (x4 m c) (x5 m c) (x6 m c) :=
  (W10_arr m ρ c 2).trans (RegionsMM.arr4_of (V9 m ρ) c _ _ (t9 m ρ c) (a9_6 m ρ c))
theorem t11 : W11 m ρ c (Proc.devRef .tc main_v77) = val_main_v81 (F := Ideal) (x0 m c) (x1 m c) (x2 m c) (x3 m c) (x4 m c) (x5 m c) (x6 m c) :=
  Stretches.hostOps5_v77 (W10 m ρ c) _ _ _ _ _ _ _ (b10_v3 m ρ c) (b10_v6 m ρ c) (b10_v31 m ρ c) (t10 m ρ c)
theorem t11b : W11 m ρ c (Proc.devRef .tc main_v78) = val_main_v82 (F := Ideal) (x7 m c) :=
  Stretches.hostOps5_v78 (W10 m ρ c) _ (a10_7 m ρ c)

/-- THE RESULT: after the last region the result array holds the reference's result stage of the arguments. -/
theorem result : W12 m ρ c (Proc.devRef .tc main_v79)
    = val_main_v84 (F := Ideal) (x0 m c) (x1 m c) (x2 m c) (x3 m c) (x4 m c) (x5 m c) (x6 m c) (x7 m c) :=
  (W12_arr m ρ c 2).trans (RegionsBias.arr5_of (V11 m ρ) c _ _ (t11 m ρ c) (t11b m ρ c))

end Cert.KernelIdeal.KValue

end
-- ==== Proof.lean ====
/-
  A three-layer graph convolution on 100000 nodes with 64 features, 1600000 edges and one self-loop per node, against
  its plain reference: the two programs compute the same array on the extended reals.

  Both programs build the same edge data on the host: the sources and targets with the self-loops appended, each node's
  degree (a scatter-add of ones at the targets), the factor 1/sqrt(max(degree, 1)) where the degree is positive and zero
  elsewhere, and one weight per edge, the product of its endpoints' factors. Each layer is then
      h ↦ scatter-add over the edges of weight(e) · (h · W)[source(e), :] at target(e), plus the bias b,
  rectified in the first two layers. The two programs differ only in how a layer's two dense steps are carried out. The
  reference takes one product of the whole [100000, 64] array with the [64, 64] weight matrix and one broadcast sum; the
  kernel runs each step as a pipelined region over ten blocks of 10000 rows, narrowing the product's operands to bf16
  (which keeps the ideal value) and accumulating into zeros. A block of rows of a product is the product of that block of
  rows, a block of rows of a broadcast sum is the sum on that block, and the ten blocks tile the array: so every region
  leaves the reference's value in its output array, and the host operations in between are the reference's own. No law of
  arithmetic beyond the definition of a matrix product is used, so nothing asks for finite entries and the precondition
  is never opened.

  The parts: Proof/KRun (the kernel's run with its result array named), Proof/Blocks (one block of rows against the whole
  array, entry by entry), Proof/RegionsMM and Proof/RegionsBias (each region's output array as one whole-array function),
  Proof/Stretches (the host stretches from arbitrary contents), Proof/KValue (the run's contents followed to the result);
  the reference's run and its stages are Proof/RefRun and Proof/RefRead.
-/
import proofs.«176149_j30477087933020_1_alg».proof.Defs
import proofs.«176149_j30477087933020_1_alg».proof.Proof.Gen.Kernel
import proofs.«176149_j30477087933020_1_alg».proof.Proof.Gen.Kernel.Skeleton
import proofs.«176149_j30477087933020_1_alg».proof.Proof.Gen.Kernel.Launch
import proofs.«176149_j30477087933020_1_alg».proof.Proof.Gen.Kernel.Points
import proofs.«176149_j30477087933020_1_alg».proof.Proof.Gen.Kernel.Frame
import proofs.«176149_j30477087933020_1_alg».proof.Proof.Gen.KernelIdeal
import proofs.«176149_j30477087933020_1_alg».proof.Proof.Gen.KernelIdeal.Skeleton
import proofs.«176149_j30477087933020_1_alg».proof.Proof.Gen.KernelIdeal.Launch
import proofs.«176149_j30477087933020_1_alg».proof.Proof.Gen.KernelIdeal.Points
import proofs.«176149_j30477087933020_1_alg».proof.Proof.Gen.KernelIdeal.Frame
import proofs.«176149_j30477087933020_1_alg».proof.Proof.Gen.ReferenceIdeal
import proofs.«176149_j30477087933020_1_alg».proof.Proof.Gen.Pre_finite_inputs
import proofs.«176149_j30477087933020_1_alg».proof.Proof.RefRun
import proofs.«176149_j30477087933020_1_alg».proof.Proof.RefRead
import proofs.«176149_j30477087933020_1_alg».proof.Proof.KRun
import proofs.«176149_j30477087933020_1_alg».proof.Proof.KValue
import Idealize.ShloMosaic.Adequacy
import Idealize.ShloMosaic.Init

noncomputable section

namespace Cert.Proof

open Idealize.ShloMosaic Idealize.SL.Sem

/-- The kernel as printed runs to the end without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation: there is nothing to restate. -/
theorem preserves : Cert.preserves_Kernel_KernelIdeal := trivial

/-- From memories that agree on the eight arguments, both idealized programs end with the reference's result stage of
    those arguments in their result arrays: the kernel by following its run's contents (Proof/KValue), the reference by
    its run read back. -/
theorem algebraic : Cert.algebraic_KernelIdeal_ReferenceIdeal := by
  intro m ρ m' ρ' _ hagree
  refine ⟨fun c => Cert.ReferenceIdeal.Read.val_main_v84 (F := Ideal) (Cert.KernelIdeal.KValue.x0 m c)
      (Cert.KernelIdeal.KValue.x1 m c) (Cert.KernelIdeal.KValue.x2 m c) (Cert.KernelIdeal.KValue.x3 m c)
      (Cert.KernelIdeal.KValue.x4 m c) (Cert.KernelIdeal.KValue.x5 m c) (Cert.KernelIdeal.KValue.x6 m c)
      (Cert.KernelIdeal.KValue.x7 m c), ?_, ?_⟩
  · exact (θ_run Cert.KernelIdeal.defs _ _).mono
      (fun r h c => ⟨(h c).1.trans (Cert.KernelIdeal.KValue.result m ρ c), (h c).2⟩)
      (Cert.KernelIdeal.KRun.run_result m ρ)
  · refine (θ_run Cert.ReferenceIdeal.defs _ _).mono (fun r h c => ⟨(h c).1.trans ?_, (h c).2⟩)
      (Cert.ReferenceIdeal.Value.run (F := Ideal) m' ρ')
    obtain ⟨h0, h1, h2, h3, h4, h5, h6, h7⟩ := hagree c
    rw [Cert.ReferenceIdeal.Read.val_main_v84_eq, h0, h1, h2, h3, h4, h5, h6, h7]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
